-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S80x10000 : Shape := ⟨2, ![80, 10000]⟩
abbrev S400x128 : Shape := ⟨2, ![400, 128]⟩
abbrev S80x128 : Shape := ⟨2, ![80, 128]⟩
abbrev S80 : Shape := ⟨1, ![80]⟩
abbrev S80x1 : Shape := ⟨2, ![80, 1]⟩

abbrev nBuf : Space → Nat
  | .hbm => 6
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S10000x128, .f32⟩
  | .local _ .vmem, ⟨11, _⟩ => ⟨S128x128, .f32⟩
  | .local _ .vmem, ⟨12, _⟩ => ⟨S1x128, .f32⟩
  | .local _ .vmem, ⟨13, _⟩ => ⟨S400x128, .f32⟩
  | .local _ .vmem, ⟨14, _⟩ => ⟨S400x128, .f32⟩
  | .local _ .vmem, ⟨15, _⟩ => ⟨S10000x128, .bf16⟩
  | .local _ .vmem, ⟨16, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def k0_off1 (i : grid0.Coords) (c0_i32_16 : BitVec 32) : Fin 2 → Nat :=
  let arg1 : BitVec 32 := BitVec.ofNat 32 (i 1).val
  let c5_i32 : BitVec 32 := 5#32
  let v21 : BitVec 32 := Scalar.muli arg1 c5_i32
  let c80_i32 : BitVec 32 := 80#32
  let v22 : BitVec 32 := Scalar.muli v21 c80_i32
  let v26 : BitVec 32 := Scalar.addi v22 c0_i32_16
  let v27 : Index := Scalar.indexCast v26
  let c0_17 : Index := 0#32
  ![v27.toNat, 0]
def k0_cond3 (i : grid0.Coords) : BitVec 1 :=
  let arg0 : BitVec 32 := BitVec.ofNat 32 (i 0).val
  let c1_i32 : BitVec 32 := 1#32
  let v18 : BitVec 1 := Scalar.cmpi .eq arg0 c1_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli c5_i32 arg1
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S128_S1x128 : S128.ShapeCasts S1x128
  inb_S80x10000_S80x10000_0_0 : ∀ a, (![0, 0] : Fin 2 → Nat) a + S80x10000.size a ≤ S80x10000.size a
  h_S80x10000 : 0 < S80x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  h_S80x128 : 0 < S80x128.numel
  shapeCasts_S80x128_S80x128 : S80x128.ShapeCasts S80x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S80x128 : S1x128.Broadcasts S80x128
  reduces_S80x128_S80 : S80x128.Reduces [1] S80
  shapeCasts_S80_S80x1 : S80.ShapeCasts S80x1
  broadcasts_S80x1_S80x128 : S80x1.Broadcasts S80x128
  inb_S400x128_S80x128_0_0 : ∀ a, (![0, 0] : Fin 2 → Nat) a + S80x128.size a ≤ S400x128.size a
  inb_S400x128_S80x128_80_0 : ∀ a, (![80, 0] : Fin 2 → Nat) a + S80x128.size a ≤ S400x128.size a
  inb_S400x128_S80x128_160_0 : ∀ a, (![160, 0] : Fin 2 → Nat) a + S80x128.size a ≤ S400x128.size a
  inb_S400x128_S80x128_240_0 : ∀ a, (![240, 0] : Fin 2 → Nat) a + S80x128.size a ≤ S400x128.size a
  inb_S400x128_S80x128_320_0 : ∀ a, (![320, 0] : Fin 2 → Nat) a + S80x128.size a ≤ S400x128.size a
  dot_S80x10000_S10000x128_S80x128_1_0_0_1_n_n_wf : DotDims.WF S80x10000 S10000x128 S80x128 [1] [0] [0] [1] [] []
  dot_S80x128_S128x128_S80x128_1_1_0_0_n_n_wf : DotDims.WF S80x128 S128x128 S80x128 [1] [1] [0] [0] [] []
  hrank0 : 0 < grid0.rank
  k0_off1_inb : ∀ i : grid0.Coords, ∀ (k0_h2 : k0_cond2 i = 1#1), ∀ (r : Fin 5), ∀ a, (k0_off1 i (BitVec.ofNat 32 (80 * r.val))) a + S80x128.size a ≤ S10000x128.size a
  k0_off1_packedbf16 : ∀ i : grid0.Coords, ∀ (k0_h2 : k0_cond2 i = 1#1), ∀ (r : Fin 5), (Rect.unit (s := S10000x128) (k0_off1 i (BitVec.ofNat 32 (80 * r.val))) S80x128.size (k0_off1_inb i k0_h2 r)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)

variable [Facts₀]

def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S80x128_S128x128_S80x128_1_1_0_0_n_n : DotDims S80x128 S128x128 S80x128 where
  lhsContracting := [1]
  rhsContracting := [1]
  lhsNonContracting := [0]
  rhsNonContracting := [0]
  lhsBatch := []
  rhsBatch := []
  wf := dot_S80x128_S128x128_S80x128_1_1_0_0_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S400x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000x1, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.Runs.lean ====
import proofs.«179778_g4148938408473_cont_8to1_b_702_13_alg».proof.Proof.Gen.Kernel.Launch
import proofs.«179778_g4148938408473_cont_8to1_b_702_13_alg».proof.Proof.Gen.Kernel.Skeleton
import proofs.«179778_g4148938408473_cont_8to1_b_702_13_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

The one host operation before the region reshapes the bias vector into a row; no argument array is written. -/

/-- Core `c`'s buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's three branches, decided over the grid

Point `t` has coordinates `(t / 25, t % 25)`: the first 25 points are the first sweep over the row blocks, the last 25 the second. -/

/-- "first sweep and first row block": only at point 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)
/-- "first sweep": points 0 … 24. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)
/-- "second sweep": points 25 … 49. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- In the first sweep the result window is idle and not written back; in the second it is live. -/
theorem idleAt0_8 : ∀ t : Fin cfg0.N, ¬cond0_2 (grid0.coords t) → cfg0.idle 8 (grid0.coords t) = true := by decide +kernel
theorem noFlush0_8 : ∀ t : Fin cfg0.N, ¬cond0_2 (grid0.coords t) → (cfg0.win 8).flush t = false := by decide +kernel
theorem liveAt0_8 : ∀ t : Fin cfg0.N, cond0_2 (grid0.coords t) → cfg0.idle 8 (grid0.coords t) = false := by decide +kernel

/-! ## The staging and scratch memrefs at a point -/

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
/-- The two scratch buffers: the rounded features and the first product `A·x`, filled row block by row block. -/
abbrev scM0_0 : Memref sig .tc .vmem S10000x128 .bf16 := Memref.whole cc0_scratch0
abbrev scM0_1 : Memref sig .tc .vmem S10000x128 .bf16 := Memref.whole cc0_scratch1
abbrev VS0_0 : View sig .tc .vmem S10000x128 .bf16 := scM0_0.view
abbrev VS0_1 : View sig .tc .vmem S10000x128 .bf16 := scM0_1.view
abbrev VO0_8 : View sig .tc .vmem S400x128 .f32 := (Memref.whole cc0_stg8_0 : Memref sig .tc .vmem S400x128 .f32).view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.K.RunA.lean ====
import proofs.«179778_g4148938408473_cont_8to1_b_702_13_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST point: it rounds the features into the first scratch (one whole store), then stores the five 80-row pieces of the first product `A·x` for row block 0 into the second scratch; the pieces are what the run finds. -/
noncomputable def kernelRun0_A (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : cond0_0 i) (hc1 : cond0_1 i) (hc2 : ¬cond0_2 i)
    (x0 : Vec F S80x10000 .f32) (x1 : Vec F S80x10000 .f32) (x2 : Vec F S80x10000 .f32) (x3 : Vec F S80x10000 .f32) (x4 : Vec F S80x10000 .f32) (x5 : Vec F S10000x128 .f32) (xs1 : Vec F S10000x128 .bf16) :
    Σ' (LS0 : List (View.Piece (Elt F) S10000x128 .bf16)), { LS1 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg11 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexact H7

end Cert.Kernel.Frame

end
-- ==== Proof.K.RunB.lean ====
import proofs.«179778_g4148938408473_cont_8to1_b_702_13_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point of the FIRST sweep: it reads the rounded features from the first scratch and stores the five 80-row pieces of `A·x` for this point's row block into the second scratch; the pieces are what the run finds. -/
noncomputable def kernelRun0_B (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : ¬cond0_0 i) (hc1 : cond0_1 i) (hc2 : ¬cond0_2 i)
    (x0 : Vec F S80x10000 .f32) (x1 : Vec F S80x10000 .f32) (x2 : Vec F S80x10000 .f32) (x3 : Vec F S80x10000 .f32) (x4 : Vec F S80x10000 .f32) (xs0 : Vec F S10000x128 .bf16) (xs1 : Vec F S10000x128 .bf16) :
    { LS1 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hf5; obtain rfl := harg12.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg11.read_unread _
      iexact H5
    iexact H6

end Cert.Kernel.Frame

end
-- ==== Proof.K.RunC.lean ====
import proofs.«179778_g4148938408473_cont_8to1_b_702_13_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the SECOND sweep: it reads the five row blocks of `A`, the whole first product from its scratch, the weights and the bias, and stores the five 80-row pieces of the result block; the pieces are what the run finds. -/
noncomputable def kernelRun0_C (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : ¬cond0_0 i) (hc1 : ¬cond0_1 i) (hc2 : cond0_2 i)
    (x0 : Vec F S80x10000 .f32) (x1 : Vec F S80x10000 .f32) (x2 : Vec F S80x10000 .f32) (x3 : Vec F S80x10000 .f32) (x4 : Vec F S80x10000 .f32) (x6 : Vec F S128x128 .f32) (x7 : Vec F S1x128 .f32) (xs1 : Vec F S10000x128 .bf16) :
    { L8 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6 ∗ owns (c : Thread nD τ) arg9 fullShare x7 ∗ (∃ d, owns (c : Thread nD τ) arg10 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg12 fullShare xs1) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5; obtain rfl := harg9.eq_unread hf6; obtain rfl := harg12.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; isplitr; · ipureintro; exact harg12.read_unread _
    iexact H8

end Cert.Kernel.Frame

end
-- ==== Proof.K.Launch.lean ====
import proofs.«179778_g4148938408473_cont_8to1_b_702_13_alg».proof.Proof.K.Runs
import Idealize.ShloMosaic.Lib.Pipeline.Launch
import Idealize.ShloMosaic.Lib.Pipeline.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
/-! ## The launch

The propagation matrix is handed to the kernel through five windows (five interleaved streams of its row blocks), so the
one buffer behind them is held by the five windows at five disjoint shares that make up the whole. -/

/-- The share each window holds its array at: the five windows on the propagation matrix split the full share. -/
def qShare : Fin cfg0.W → PosShare TreeShare := fun w => match w with
  | ⟨0, _⟩ => fullShare.left.left
  | ⟨1, _⟩ => fullShare.left.right
  | ⟨2, _⟩ => fullShare.right.left
  | ⟨3, _⟩ => fullShare.right.right.left
  | ⟨4, _⟩ => fullShare.right.right.right
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

/-- The buffers behind the windows' arrays, each whole at the full share, are the windows' arrays at their shares: the
    propagation matrix's buffer is split in two three times to make the five shares of its five windows. -/
theorem arrays_of_bufs (rdat : (c : Dev nD) → Pipeline.RDat τ (Elt F) Unit ℕ (UR sig nD τ) ℕ cfg0 c) {c : Dev nD}
    (hq : ∀ w, (rdat c).q w = qShare w) (hA : ∀ w, (rdat c).A w = V m c (Pipeline.arrRef spec0 w)) (c' : Dev nD) (hc : c' = c := by rfl) :
    (Pipeline.arrBufs (Ix := Unit) (Name := ℕ) (U := UR sig nD τ) (Lvl := ℕ) spec0 c (V m c) : sProp 𝕄) ⊢ (rdat c).arrays (rdat c).A := by
  classical
  have hR : (rdat c).arrays (rdat c).A
      = bigSep Finset.univ fun w : Fin cfg0.W => (((c.tc : Thread nD τ).loc (Pipeline.arrRef spec0 w)) ↦{(rdat c).share w} V m c (Pipeline.arrRef spec0 w) : sProp 𝕄) := by
    unfold Pipeline.RDat.arrays
    exact bigSep_congr fun w _ => by rw [(arr_whole0 w).set_eq_univ, hA w]
  rw [hR, bigSep_W0]
  have hs : ∀ w, (rdat c).share w = qShare w := fun w => by
    unfold Pipeline.RDat.share; rw [hq w]
    fin_cases w <;> rfl
  simp only [hs]
  have hL : (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)
          ∗ (((c.tc : Thread nD τ).loc main_v1) ↦{fullShare} V m c main_v1)) := by
    unfold Pipeline.arrBufs
    rw [bigSep_eq_bigSepL_of_eq [main_arg1, main_arg0, main_arg2, main_v0, main_v1] (by decide) (by decide)]
    rfl
  rw [hL]
  iintro ⟨H1, H0, H2, Hv0, Hv1⟩
  ihave Hs := (pointsTo_share (PosShare.mem_left_op_right fullShare)).1 $$ H1
  icases Hs with ⟨HL, HR⟩
  ihave Hs := (pointsTo_share (PosShare.mem_left_op_right fullShare.left)).1 $$ HL
  icases Hs with ⟨HLL, HLR⟩
  ihave Hs := (pointsTo_share (PosShare.mem_left_op_right fullShare.right)).1 $$ HR
  icases Hs with ⟨HRL, HRR⟩
  ihave Hs := (pointsTo_share (PosShare.mem_left_op_right fullShare.right.right)).1 $$ HRR
  icases Hs with ⟨HRRL, HRRR⟩
  isplitl [HLL]; · iexact HLL
  isplitl [HLR]; · iexact HLR
  isplitl [HRL]; · iexact HRL
  isplitl [HRRL]; · iexact HRRL
  isplitl [HRRR]; · iexact HRRR
  isplitl [H0]; · iexact H0
  isplitl [H2]; · iexact H2
  isplitl [Hv0]; · iexact Hv0
  iexact Hv1

set_option backward.isDefEq.respectTransparency.types false in
set_option maxHeartbeats 2000000 in
/-- The run of @main from relational proof data whose windows hold the shares above: every weakly fair execution
    terminates, each window's array ends at contents the data allow, every other unscoped buffer as the region found it. -/
theorem run_shared (rdat : (c : Dev nD) → Pipeline.RDat τ (Elt F) Unit ℕ (UR sig nD τ) ℕ cfg0 c)
    (hbody : ∀ c, (rdat c).BodyObligation (defs₀ (F := F)) Variants.none () Set.univ)
    (hq : ∀ c w, (rdat c).q w = qShare w) (howed : ∀ c t, (rdat c).owed t = 0)
    (hA : ∀ c w, (rdat c).A w = V m c (Pipeline.arrRef spec0 w))
    (hin : ∀ c, Pipeline.ΦA spec0 c ⊢ (rdat c).Φ 0) (hout : ∀ c, (rdat c).Φ (Fin.last cfg0.N) ⊢ Pipeline.ΦA spec0 c) :
    θ_run defs (onTc (τ := τ) (main (F := F))) (s₀ m ρ) (Pipeline.RDat.FramePost cfg0 rdat (V m)) := by
  classical
  have hci : Function.Injective (Pipeline.cellOf (nD := nD) (τ := τ) (Pipeline.pin (fun q => (cfgs q).toPCfg (Val := Elt F)) (fun q => (cfgs q).toPCfg_adm))) := cellOf_inj
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) (0 : Fin 1) rdat) () hci (0 : Fin 1)
    winFacts₀0 (Pipeline.OwnSemFacts.none spec0) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp)) (u₀ := initOf (Pipeline.cells _ hci) (Pipeline.launchToks _ hci))
    (hu₀ := by
      iintro Hu; imodintro
      isplitl [Hu]; · iapply (show (ownU _ : sProp 𝕄) ⊢ BI.own (emb₁ (initOf (Pipeline.cells _ hci) (Pipeline.launchToks _ hci))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_of_bufs m rdat (hq c) (hA c) c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (Pipeline.Prefetch.none) spec0 c (V m c))
    (hX := fun c => by
      iintro ⟨HU, -, -, -, Hp, -⟩; imodintro
      isplitl [Hp]; · iexists _; iexact Hp
      iexact HU)
    (hin := fun c => by
      rw [Pipeline.RDat.familyOf_self]
      exact (show _ ⊢ Pipeline.ΦA spec0 c by
        unfold Pipeline.ΦA; iintro ⟨Hp, -, Hr⟩
        isplitl [Hr] <;> iassumption).trans (hin c))
    (hout := fun c => by
      rw [Pipeline.RDat.familyOf_self]
      exact (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (fun k => k.elim0) (h c).2.2⟩)

end Cert.Kernel.Frame

end
-- ==== Proof.K.Frame.lean ====
import proofs.«179778_g4148938408473_cont_8to1_b_702_13_alg».proof.Proof.K.RunA
import proofs.«179778_g4148938408473_cont_8to1_b_702_13_alg».proof.Proof.K.RunB
import proofs.«179778_g4148938408473_cont_8to1_b_702_13_alg».proof.Proof.K.RunC
import proofs.«179778_g4148938408473_cont_8to1_b_702_13_alg».proof.Proof.K.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: nothing is said of what the kernel leaves in its result window or its scratch

For the frame the contents of the result block and of the two scratch buffers do not matter: every input window's buffer
holds its block of the array, the result window's buffer and the scratch hold anything before and after every point. -/

/-- The one window whose contents are not named: the result's. -/
def forgets0 : Fin 9 → Bool := fun w => w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q := qShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d))

set_option maxHeartbeats 4000000 in
/-- The body at any point: the inputs' buffers hold their blocks; the point is the first, a later one of the first sweep, or
    one of the second sweep, and the corresponding run applies; the scratch and the result buffer pass through at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 50 := lt_of_lt_of_eq t.isLt (show cfg0.N = 50 from N_0)
  by_cases h1 : t.val < 25
  · have h2 : ¬ 25 ≤ t.val := by omega
    by_cases h0 : t.val = 0
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) ds1).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      iintro ⟨H0, H1, H2, H3, H4, H5, ⟨%es0, HS0⟩, HS1⟩
      isplitl [HS0 HS1 Hg]
      · isplitr [Hg]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) ds0 ds1).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitr [Hg]
        · isplitl [HS0]
          · iexists _; iexact HS0
          · iexists _; unfold owns; iexists _; isplitr
            swap; · iexact HS1
            ipureintro; rfl
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have h2 : 25 ≤ t.val := by omega
    have h0 : ¬ t.val = 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 6 t) (iblk m c 7 t) ds1).2 Set.univ _)
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexists _; iexact H8
    isplitl [HS1]; · iexact HS1
    iintro ⟨H0, H1, H2, H3, H4, H6, H7, ⟨%e8, H8⟩, HS1⟩
    isplitl [HS0 HS1 Hg]
    · isplitr [Hg]
      · isplitl [HS0]
        · iexists _; iexact HS0
        · iexists _; iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; unfold owns; iexists _; isplitr
    swap; · iexact H8
    ipureintro; rfl

theorem body_obligation (c : Dev nD) : BodyObligation (dats (F := F) m 0 c) (defs₀ (F := F)) Variants.none () Set.univ forgets0 := fun t => by
  rw [bigSep_W0, bigSep_W0]
  exact sound_body m c t

/-! ## The run and the frame -/

theorem run_main : θ_run defs (onTc (τ := τ) (main (F := F))) (s₀ m ρ) (Pipeline.RDat.FramePost cfg0 (fun c => (dats m 0 c).toRForget forgets0) (V m)) :=
  run_shared m ρ (fun c => (dats m 0 c).toRForget forgets0) (fun c => (body_obligation m c).loose.toRForget)
    (fun _ _ => rfl) (fun _ _ => rfl) (A_eq m) (fun _ => .rfl) (fun _ => .rfl)

/-- The frame: the run terminates without a fault and the four argument arrays end as they were — the features, the
    propagation matrix and the weights as input windows' arrays, the bias as a buffer the region never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets0).ArrAt_in 5 rfl _) _) ((h c).1 5)).trans ((A_eq m c 5).trans (V_main_arg0 m c)),
     (Eq.mp (congrFun (((dats m 0 c).toRForget forgets0).ArrAt_in 0 rfl _) _) ((h c).1 0)).trans ((A_eq m c 0).trans (V_main_arg1 m c)),
     (Eq.mp (congrFun (((dats m 0 c).toRForget forgets0).ArrAt_in 6 rfl _) _) ((h c).1 6)).trans ((A_eq m c 6).trans (V_main_arg2 m c)),
     ((h c).2 main_arg3 (Pipeline.mem_restRefs_of main_arg3 (by decide) (by decide))).trans (V_main_arg3 m c)⟩) (run_main m ρ)

end Cert.Kernel.Frame

end
-- ==== Proof.KI.Runs.lean ====
import proofs.«179778_g4148938408473_cont_8to1_b_702_13_alg».proof.Proof.Gen.KernelIdeal.Launch
import proofs.«179778_g4148938408473_cont_8to1_b_702_13_alg».proof.Proof.Gen.KernelIdeal.Skeleton
import proofs.«179778_g4148938408473_cont_8to1_b_702_13_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them

The one host operation before the region reshapes the bias vector into a row; no argument array is written. -/

/-- Core `c`'s buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's three branches, decided over the grid

Point `t` has coordinates `(t / 25, t % 25)`: the first 25 points are the first sweep over the row blocks, the last 25 the second. -/

/-- "first sweep and first row block": only at point 0. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)
/-- "first sweep": points 0 … 24. -/
abbrev cond0_1 (i : grid0.Coords) : Prop := k0_cond2 i = 1#1
theorem hcond0_1 : ∀ t : Fin cfg0.N, cond0_1 (grid0.coords t) ↔ t.val < 25 :=
  (by decide +kernel : ∀ t : Fin grid0.N, cond0_1 (grid0.coords t) ↔ t.val < 25)
/-- "second sweep": points 25 … 49. -/
abbrev cond0_2 (i : grid0.Coords) : Prop := k0_cond3 i = 1#1
theorem hcond0_2 : ∀ t : Fin cfg0.N, cond0_2 (grid0.coords t) ↔ 25 ≤ t.val :=
  (by decide +kernel : ∀ t : Fin grid0.N, cond0_2 (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- In the first sweep the result window is idle and not written back; in the second it is live. -/
theorem idleAt0_8 : ∀ t : Fin cfg0.N, ¬cond0_2 (grid0.coords t) → cfg0.idle 8 (grid0.coords t) = true := by decide +kernel
theorem noFlush0_8 : ∀ t : Fin cfg0.N, ¬cond0_2 (grid0.coords t) → (cfg0.win 8).flush t = false := by decide +kernel
theorem liveAt0_8 : ∀ t : Fin cfg0.N, cond0_2 (grid0.coords t) → cfg0.idle 8 (grid0.coords t) = false := by decide +kernel

/-! ## The staging and scratch memrefs at a point -/

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x128 .f32 := win0_8.stage (cfg0.slots t 8)
abbrev hs0_8 (t : Fin cfg0.N) : (ms0_8 t).IsWhole := hstage0_8 ((cfg0.slots t 8).cast nbuf0_8)
/-- The two scratch buffers: the rounded features and the first product `A·x`, filled row block by row block. -/
abbrev scM0_0 : Memref sig .tc .vmem S10000x128 .bf16 := Memref.whole cc0_scratch0
abbrev scM0_1 : Memref sig .tc .vmem S10000x128 .bf16 := Memref.whole cc0_scratch1
abbrev VS0_0 : View sig .tc .vmem S10000x128 .bf16 := scM0_0.view
abbrev VS0_1 : View sig .tc .vmem S10000x128 .bf16 := scM0_1.view
abbrev VO0_8 : View sig .tc .vmem S400x128 .f32 := (Memref.whole cc0_stg8_0 : Memref sig .tc .vmem S400x128 .f32).view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frame

end
-- ==== Proof.KI.Launch.lean ====
import proofs.«179778_g4148938408473_cont_8to1_b_702_13_alg».proof.Proof.KI.Runs
import Idealize.ShloMosaic.Lib.Pipeline.Launch
import Idealize.ShloMosaic.Lib.Pipeline.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
/-! ## The launch

The propagation matrix is handed to the kernel through five windows (five interleaved streams of its row blocks), so the
one buffer behind them is held by the five windows at five disjoint shares that make up the whole. -/

/-- The share each window holds its array at: the five windows on the propagation matrix split the full share. -/
def qShare : Fin cfg0.W → PosShare TreeShare := fun w => match w with
  | ⟨0, _⟩ => fullShare.left.left
  | ⟨1, _⟩ => fullShare.left.right
  | ⟨2, _⟩ => fullShare.right.left
  | ⟨3, _⟩ => fullShare.right.right.left
  | ⟨4, _⟩ => fullShare.right.right.right
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

/-- The buffers behind the windows' arrays, each whole at the full share, are the windows' arrays at their shares: the
    propagation matrix's buffer is split in two three times to make the five shares of its five windows. -/
theorem arrays_of_bufs (rdat : (c : Dev nD) → Pipeline.RDat τ (Elt F) Unit ℕ (UR sig nD τ) ℕ cfg0 c) {c : Dev nD}
    (hq : ∀ w, (rdat c).q w = qShare w) (hA : ∀ w, (rdat c).A w = V m c (Pipeline.arrRef spec0 w)) (c' : Dev nD) (hc : c' = c := by rfl) :
    (Pipeline.arrBufs (Ix := Unit) (Name := ℕ) (U := UR sig nD τ) (Lvl := ℕ) spec0 c (V m c) : sProp 𝕄) ⊢ (rdat c).arrays (rdat c).A := by
  classical
  have hR : (rdat c).arrays (rdat c).A
      = bigSep Finset.univ fun w : Fin cfg0.W => (((c.tc : Thread nD τ).loc (Pipeline.arrRef spec0 w)) ↦{(rdat c).share w} V m c (Pipeline.arrRef spec0 w) : sProp 𝕄) := by
    unfold Pipeline.RDat.arrays
    exact bigSep_congr fun w _ => by rw [(arr_whole0 w).set_eq_univ, hA w]
  rw [hR, bigSep_W0]
  have hs : ∀ w, (rdat c).share w = qShare w := fun w => by
    unfold Pipeline.RDat.share; rw [hq w]
    fin_cases w <;> rfl
  simp only [hs]
  have hL : (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)
          ∗ (((c.tc : Thread nD τ).loc main_v1) ↦{fullShare} V m c main_v1)) := by
    unfold Pipeline.arrBufs
    rw [bigSep_eq_bigSepL_of_eq [main_arg1, main_arg0, main_arg2, main_v0, main_v1] (by decide) (by decide)]
    rfl
  rw [hL]
  iintro ⟨H1, H0, H2, Hv0, Hv1⟩
  ihave Hs := (pointsTo_share (PosShare.mem_left_op_right fullShare)).1 $$ H1
  icases Hs with ⟨HL, HR⟩
  ihave Hs := (pointsTo_share (PosShare.mem_left_op_right fullShare.left)).1 $$ HL
  icases Hs with ⟨HLL, HLR⟩
  ihave Hs := (pointsTo_share (PosShare.mem_left_op_right fullShare.right)).1 $$ HR
  icases Hs with ⟨HRL, HRR⟩
  ihave Hs := (pointsTo_share (PosShare.mem_left_op_right fullShare.right.right)).1 $$ HRR
  icases Hs with ⟨HRRL, HRRR⟩
  isplitl [HLL]; · iexact HLL
  isplitl [HLR]; · iexact HLR
  isplitl [HRL]; · iexact HRL
  isplitl [HRRL]; · iexact HRRL
  isplitl [HRRR]; · iexact HRRR
  isplitl [H0]; · iexact H0
  isplitl [H2]; · iexact H2
  isplitl [Hv0]; · iexact Hv0
  iexact Hv1

set_option backward.isDefEq.respectTransparency.types false in
set_option maxHeartbeats 2000000 in
/-- The run of @main from relational proof data whose windows hold the shares above: every weakly fair execution
    terminates, each window's array ends at contents the data allow, every other unscoped buffer as the region found it. -/
theorem run_shared (rdat : (c : Dev nD) → Pipeline.RDat τ (Elt F) Unit ℕ (UR sig nD τ) ℕ cfg0 c)
    (hbody : ∀ c, (rdat c).BodyObligation (defs₀ (F := F)) Variants.none () Set.univ)
    (hq : ∀ c w, (rdat c).q w = qShare w) (howed : ∀ c t, (rdat c).owed t = 0)
    (hA : ∀ c w, (rdat c).A w = V m c (Pipeline.arrRef spec0 w))
    (hin : ∀ c, Pipeline.ΦA spec0 c ⊢ (rdat c).Φ 0) (hout : ∀ c, (rdat c).Φ (Fin.last cfg0.N) ⊢ Pipeline.ΦA spec0 c) :
    θ_run defs (onTc (τ := τ) (main (F := F))) (s₀ m ρ) (Pipeline.RDat.FramePost cfg0 rdat (V m)) := by
  classical
  have hci : Function.Injective (Pipeline.cellOf (nD := nD) (τ := τ) (Pipeline.pin (fun q => (cfgs q).toPCfg (Val := Elt F)) (fun q => (cfgs q).toPCfg_adm))) := cellOf_inj
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) (0 : Fin 1) rdat) () hci (0 : Fin 1)
    winFacts₀0 (Pipeline.OwnSemFacts.none spec0) (Pipeline.PreFacts.none _) emb₁ defs₀ Variants.none m ρ main
    (fun c => by rw [Pipeline.RDat.familyOf_self]; exact hbody c)
    block_pos0 arr_whole0 stage_whole0 (fun c t => by rw [Pipeline.RDat.familyOf_self]; exact howed c t)
    (G := fun _ => iprop(emp)) (u₀ := initOf (Pipeline.cells _ hci) (Pipeline.launchToks _ hci))
    (hu₀ := by
      iintro Hu; imodintro
      isplitl [Hu]; · iapply (show (ownU _ : sProp 𝕄) ⊢ BI.own (emb₁ (initOf (Pipeline.cells _ hci) (Pipeline.launchToks _ hci))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_of_bufs m rdat (hq c) (hA c) c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (Pipeline.Prefetch.none) spec0 c (V m c))
    (hX := fun c => by
      iintro ⟨HU, -, -, -, Hp, -⟩; imodintro
      isplitl [Hp]; · iexists _; iexact Hp
      iexact HU)
    (hin := fun c => by
      rw [Pipeline.RDat.familyOf_self]
      exact (show _ ⊢ Pipeline.ΦA spec0 c by
        unfold Pipeline.ΦA; iintro ⟨Hp, -, Hr⟩
        isplitl [Hr] <;> iassumption).trans (hin c))
    (hout := fun c => by
      rw [Pipeline.RDat.familyOf_self]
      exact (hout c).trans (by
        rw [Pipeline.ownSems0_none]; unfold Pipeline.ΦA
        iintro ⟨Hr, Hp⟩
        isplitl [Hp]; · iexact Hp
        isplitr; · iempintro
        iexact Hr))
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (fun k => k.elim0) (h c).2.2⟩)

end Cert.KernelIdeal.Frame

end
-- ==== Proof.KI.RunA.lean ====
import proofs.«179778_g4148938408473_cont_8to1_b_702_13_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST point: it rounds the features into the first scratch (one whole store), then stores the five 80-row pieces of the first product `A·x` for row block 0 into the second scratch; the pieces are what the run finds. -/
noncomputable def kernelRun0_A (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : cond0_0 i) (hc1 : cond0_1 i) (hc2 : ¬cond0_2 i)
    (x0 : Vec F S80x10000 .f32) (x1 : Vec F S80x10000 .f32) (x2 : Vec F S80x10000 .f32) (x3 : Vec F S80x10000 .f32) (x4 : Vec F S80x10000 .f32) (x5 : Vec F S10000x128 .f32) (xs1 : Vec F S10000x128 .bf16) :
    Σ' (LS0 : List (View.Piece (Elt F) S10000x128 .bf16)), { LS1 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg11 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexact H7

end Cert.KernelIdeal.Frame

end
-- ==== Proof.KI.RunB.lean ====
import proofs.«179778_g4148938408473_cont_8to1_b_702_13_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point of the FIRST sweep: it reads the rounded features from the first scratch and stores the five 80-row pieces of `A·x` for this point's row block into the second scratch; the pieces are what the run finds. -/
noncomputable def kernelRun0_B (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : ¬cond0_0 i) (hc1 : cond0_1 i) (hc2 : ¬cond0_2 i)
    (x0 : Vec F S80x10000 .f32) (x1 : Vec F S80x10000 .f32) (x2 : Vec F S80x10000 .f32) (x3 : Vec F S80x10000 .f32) (x4 : Vec F S80x10000 .f32) (xs0 : Vec F S10000x128 .bf16) (xs1 : Vec F S10000x128 .bf16) :
    { LS1 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hf5; obtain rfl := harg12.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg11.read_unread _
      iexact H5
    iexact H6

end Cert.KernelIdeal.Frame

end
-- ==== Proof.KI.RunC.lean ====
import proofs.«179778_g4148938408473_cont_8to1_b_702_13_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the SECOND sweep: it reads the five row blocks of `A`, the whole first product from its scratch, the weights and the bias, and stores the five 80-row pieces of the result block; the pieces are what the run finds. -/
noncomputable def kernelRun0_C (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole) (hc0 : ¬cond0_0 i) (hc1 : ¬cond0_1 i) (hc2 : cond0_2 i)
    (x0 : Vec F S80x10000 .f32) (x1 : Vec F S80x10000 .f32) (x2 : Vec F S80x10000 .f32) (x3 : Vec F S80x10000 .f32) (x4 : Vec F S80x10000 .f32) (x6 : Vec F S128x128 .f32) (x7 : Vec F S1x128 .f32) (xs1 : Vec F S10000x128 .bf16) :
    { L8 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6 ∗ owns (c : Thread nD τ) arg9 fullShare x7 ∗ (∃ d, owns (c : Thread nD τ) arg10 fullShare d) ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg12 fullShare xs1) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__sgc_kernel_eq_skeleton]; unfold cc0__sgc_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf5; obtain rfl := harg9.eq_unread hf6; obtain rfl := harg12.eq_unread hf8
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; iexact H7
    iexists _; isplitr; · ipureintro; exact harg12.read_unread _
    iexact H8

end Cert.KernelIdeal.Frame

end
-- ==== Proof.Spec.lean ====
/-
  The function both programs compute, index by index, on the extended reals.

  With `A` the 10000 x 10000 propagation matrix, `x` the 10000 x 128 features, `W` the 128 x 128 weights and `b` the
  bias: two propagation steps `A · (A · x)`, the linear layer `h · Wᵀ + b`, and the logarithm of the softmax along each
  row, in its shifted form: with `z` a row of logits and `M` its largest entry (the running maximum started from the
  float `-inf`), entry `c` is `(z c - M) - log (∑ⱼ exp (z j - M))`.
-/
import Idealize.ShloMosaic.PureOps.Ideal
import Idealize.ShloMosaic.Lib.ValueIdx

noncomputable section

namespace Cert.Sgc

open Idealize.ShloMosaic Idealize.ShloMosaic.ValueIdx
open scoped BigOperators

/-- One propagation step: row `r` of `A` against column `c` of `x`. -/
def step (A : (⟨2, ![10000, 10000]⟩ : Shape).Idx → EReal) (x : (⟨2, ![10000, 128]⟩ : Shape).Idx → EReal)
    (r : Fin 10000) (c : Fin 128) : EReal :=
  ∑ q : Fin 10000, A (ix2 r q) * x (ix2 q c)

/-- The second step over the first, as a table. -/
def step2 (A : (⟨2, ![10000, 10000]⟩ : Shape).Idx → EReal) (x : (⟨2, ![10000, 128]⟩ : Shape).Idx → EReal)
    (r : Fin 10000) (k : Fin 128) : EReal :=
  ∑ q : Fin 10000, A (ix2 r q) * step A x q k

/-- The logits: the twice-propagated features against the rows of `W`, plus the bias. -/
def logit (A : (⟨2, ![10000, 10000]⟩ : Shape).Idx → EReal) (x : (⟨2, ![10000, 128]⟩ : Shape).Idx → EReal)
    (W : (⟨2, ![128, 128]⟩ : Shape).Idx → EReal) (b : (⟨1, ![128]⟩ : Shape).Idx → EReal) (r : Fin 10000) (j : Fin 128) : EReal :=
  (∑ k : Fin 128, step2 A x r k * W (ix2 j k)) + b (ix1 j)

/-- The largest entry of a row, as the running maximum from the float `-inf`. -/
def rowTop (z : Fin 128 → EReal) : EReal :=
  (Finset.univ : Finset (Fin 128)).fold max (Ideal.ofBits .f32 0xFF800000#32) z

/-- The shifted log-softmax of a row. -/
def lsmRow (z : Fin 128 → EReal) (c : Fin 128) : EReal :=
  (z c - rowTop z) - Ideal.log (∑ j : Fin 128, Ideal.exp (z j - rowTop z))

/-- The result array. -/
def G (A : (⟨2, ![10000, 10000]⟩ : Shape).Idx → EReal) (x : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => lsmRow (logit A x W b (i 0)) (i 1)

end Cert.Sgc

end
-- ==== Proof.KI.ExactDefs.lean ====
import proofs.«179778_g4148938408473_cont_8to1_b_702_13_alg».proof.Proof.KI.RunA
import proofs.«179778_g4148938408473_cont_8to1_b_702_13_alg».proof.Proof.KI.RunB
import proofs.«179778_g4148938408473_cont_8to1_b_702_13_alg».proof.Proof.KI.RunC
import proofs.«179778_g4148938408473_cont_8to1_b_702_13_alg».proof.Proof.Spec

set_option maxRecDepth 16384

noncomputable section

namespace Cert.KernelIdeal.Exact

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

/-! ## What the kernel's buffers hold, on the extended reals

`A` is the propagation matrix, `x` the features, `W` the weights, `b` the bias, all as the region finds them. The first
scratch holds `x` (its rounding is the identity here); the second is filled with `A·x`, 400 rows per point of the first
sweep; the result array ends at the specification `G`. -/

variable (m : (ℓ : Loc nD τ sig) → Buf (Elt Ideal) ℓ)

/-- The features as the first scratch holds them after the first point. -/
def xb (c : Dev nD) : Vec Ideal S10000x128 .bf16 := fun i => V m c main_arg0 i

/-- The first product `A·x`, what the second scratch holds after the first sweep. -/
def Yfull (c : Dev nD) : Vec Ideal S10000x128 .bf16 :=
  fun i => Cert.Sgc.step (V m c main_arg1) (V m c main_arg0) (i 0) (i 1)

/-- After point `n` of the first sweep the first `400·(n+1)` rows of the second scratch are rows of `A·x`. -/
def RowsDone (c : Dev nD) (n : ℕ) (y : Vec Ideal S10000x128 .bf16) : Prop :=
  ∀ i : S10000x128.Idx, (i 0).val < 400 * (n + 1) → y i = Yfull m c i

/-- The result array the specification gives. -/
def Gout (c : Dev nD) : Buf (Elt Ideal) ((cfg0.win 8).arr.view.loc (c.tc : Thread nD τ)) :=
  Cert.Sgc.G (V m c main_arg1) (V m c main_arg0) (V m c main_arg2) (V m c main_arg3)

/-- Its block at a point: what the result window's buffer must hold after a point of the second sweep. -/
def oblk (c : Dev nD) (t : Fin cfg0.N) : ((cfg0.win 8).xblock (cfg0.grid.coords t)).Idx → Elt Ideal (cfg0.win 8).elt :=
  ((cfg0.win 8).blk t).view.read (Elt Ideal) (Gout m c)

end Cert.KernelIdeal.Exact

end
-- ==== Proof.KI.Blocks.lean ====
import proofs.«179778_g4148938408473_cont_8to1_b_702_13_alg».proof.Proof.KI.ExactDefs
import Idealize.ShloMosaic.Lib.ValueLayout
import Idealize.ShloMosaic.Lib.StableHlo.Run
import Idealize.ShloMosaic.Lib.Pipeline.Value

set_option maxRecDepth 16384

noncomputable section

namespace Cert.KernelIdeal.Exact

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

/-! ## The windows' blocks, read at an index

The block index of each window at each of the 50 points is decided once; an element of a block then sits in its array at
block index × block size + its own coordinate. -/

variable (m : (ℓ : Loc nD τ sig) → Buf (Elt Ideal) ℓ)

theorem idx0_0 : ∀ t : Fin cfg0.N, win0_0.index t (0 : Fin 2) = 5 * (t.val % 25) + 0 ∧ win0_0.index t (1 : Fin 2) = 0 :=
  (by decide +kernel : ∀ t : Fin grid0.N, win0_0.index t (0 : Fin 2) = 5 * (t.val % 25) + 0 ∧ win0_0.index t (1 : Fin 2) = 0)

/-- Row `r` of stream 0's block at point `t` is row `400·(t mod 25) + 80·0 + r` of the propagation matrix. -/
theorem iblk_rows_0 (c : Dev nD) (t : Fin cfg0.N) (r : Fin 80) (q : Fin 10000) (h : 400 * (t.val % 25) + 80 * 0 + r.val < 10000) :
    iblk m c 0 t (ix2 r q) = V m c main_arg1 (ix2 ⟨400 * (t.val % 25) + 80 * 0 + r.val, h⟩ q) := by
  obtain ⟨e0, e1⟩ := idx0_0 t
  show V m c main_arg1 (((cfg0.win 0).blk t).view.emb (ix2 r q)) = _
  refine congrArg _ ?_
  funext a; apply Fin.ext
  match a with
  | ⟨0, _⟩ => show win0_0.index t (0 : Fin 2) * 80 + 1 * r.val = 400 * (t.val % 25) + 80 * 0 + r.val; omega
  | ⟨1, _⟩ => show win0_0.index t (1 : Fin 2) * 10000 + 1 * q.val = q.val; omega

theorem idx0_1 : ∀ t : Fin cfg0.N, win0_1.index t (0 : Fin 2) = 5 * (t.val % 25) + 1 ∧ win0_1.index t (1 : Fin 2) = 0 :=
  (by decide +kernel : ∀ t : Fin grid0.N, win0_1.index t (0 : Fin 2) = 5 * (t.val % 25) + 1 ∧ win0_1.index t (1 : Fin 2) = 0)

/-- Row `r` of stream 1's block at point `t` is row `400·(t mod 25) + 80·1 + r` of the propagation matrix. -/
theorem iblk_rows_1 (c : Dev nD) (t : Fin cfg0.N) (r : Fin 80) (q : Fin 10000) (h : 400 * (t.val % 25) + 80 * 1 + r.val < 10000) :
    iblk m c 1 t (ix2 r q) = V m c main_arg1 (ix2 ⟨400 * (t.val % 25) + 80 * 1 + r.val, h⟩ q) := by
  obtain ⟨e0, e1⟩ := idx0_1 t
  show V m c main_arg1 (((cfg0.win 1).blk t).view.emb (ix2 r q)) = _
  refine congrArg _ ?_
  funext a; apply Fin.ext
  match a with
  | ⟨0, _⟩ => show win0_1.index t (0 : Fin 2) * 80 + 1 * r.val = 400 * (t.val % 25) + 80 * 1 + r.val; omega
  | ⟨1, _⟩ => show win0_1.index t (1 : Fin 2) * 10000 + 1 * q.val = q.val; omega

theorem idx0_2 : ∀ t : Fin cfg0.N, win0_2.index t (0 : Fin 2) = 5 * (t.val % 25) + 2 ∧ win0_2.index t (1 : Fin 2) = 0 :=
  (by decide +kernel : ∀ t : Fin grid0.N, win0_2.index t (0 : Fin 2) = 5 * (t.val % 25) + 2 ∧ win0_2.index t (1 : Fin 2) = 0)

/-- Row `r` of stream 2's block at point `t` is row `400·(t mod 25) + 80·2 + r` of the propagation matrix. -/
theorem iblk_rows_2 (c : Dev nD) (t : Fin cfg0.N) (r : Fin 80) (q : Fin 10000) (h : 400 * (t.val % 25) + 80 * 2 + r.val < 10000) :
    iblk m c 2 t (ix2 r q) = V m c main_arg1 (ix2 ⟨400 * (t.val % 25) + 80 * 2 + r.val, h⟩ q) := by
  obtain ⟨e0, e1⟩ := idx0_2 t
  show V m c main_arg1 (((cfg0.win 2).blk t).view.emb (ix2 r q)) = _
  refine congrArg _ ?_
  funext a; apply Fin.ext
  match a with
  | ⟨0, _⟩ => show win0_2.index t (0 : Fin 2) * 80 + 1 * r.val = 400 * (t.val % 25) + 80 * 2 + r.val; omega
  | ⟨1, _⟩ => show win0_2.index t (1 : Fin 2) * 10000 + 1 * q.val = q.val; omega

theorem idx0_3 : ∀ t : Fin cfg0.N, win0_3.index t (0 : Fin 2) = 5 * (t.val % 25) + 3 ∧ win0_3.index t (1 : Fin 2) = 0 :=
  (by decide +kernel : ∀ t : Fin grid0.N, win0_3.index t (0 : Fin 2) = 5 * (t.val % 25) + 3 ∧ win0_3.index t (1 : Fin 2) = 0)

/-- Row `r` of stream 3's block at point `t` is row `400·(t mod 25) + 80·3 + r` of the propagation matrix. -/
theorem iblk_rows_3 (c : Dev nD) (t : Fin cfg0.N) (r : Fin 80) (q : Fin 10000) (h : 400 * (t.val % 25) + 80 * 3 + r.val < 10000) :
    iblk m c 3 t (ix2 r q) = V m c main_arg1 (ix2 ⟨400 * (t.val % 25) + 80 * 3 + r.val, h⟩ q) := by
  obtain ⟨e0, e1⟩ := idx0_3 t
  show V m c main_arg1 (((cfg0.win 3).blk t).view.emb (ix2 r q)) = _
  refine congrArg _ ?_
  funext a; apply Fin.ext
  match a with
  | ⟨0, _⟩ => show win0_3.index t (0 : Fin 2) * 80 + 1 * r.val = 400 * (t.val % 25) + 80 * 3 + r.val; omega
  | ⟨1, _⟩ => show win0_3.index t (1 : Fin 2) * 10000 + 1 * q.val = q.val; omega

theorem idx0_4 : ∀ t : Fin cfg0.N, win0_4.index t (0 : Fin 2) = 5 * (t.val % 25) + 4 ∧ win0_4.index t (1 : Fin 2) = 0 :=
  (by decide +kernel : ∀ t : Fin grid0.N, win0_4.index t (0 : Fin 2) = 5 * (t.val % 25) + 4 ∧ win0_4.index t (1 : Fin 2) = 0)

/-- Row `r` of stream 4's block at point `t` is row `400·(t mod 25) + 80·4 + r` of the propagation matrix. -/
theorem iblk_rows_4 (c : Dev nD) (t : Fin cfg0.N) (r : Fin 80) (q : Fin 10000) (h : 400 * (t.val % 25) + 80 * 4 + r.val < 10000) :
    iblk m c 4 t (ix2 r q) = V m c main_arg1 (ix2 ⟨400 * (t.val % 25) + 80 * 4 + r.val, h⟩ q) := by
  obtain ⟨e0, e1⟩ := idx0_4 t
  show V m c main_arg1 (((cfg0.win 4).blk t).view.emb (ix2 r q)) = _
  refine congrArg _ ?_
  funext a; apply Fin.ext
  match a with
  | ⟨0, _⟩ => show win0_4.index t (0 : Fin 2) * 80 + 1 * r.val = 400 * (t.val % 25) + 80 * 4 + r.val; omega
  | ⟨1, _⟩ => show win0_4.index t (1 : Fin 2) * 10000 + 1 * q.val = q.val; omega

theorem iblk_rows_0' (c : Dev nD) (t : Fin cfg0.N) (j : ℕ) (hj : t.val % 25 = j) (r : Fin 80) (q : Fin 10000) (h : 400 * j + 80 * 0 + r.val < 10000) :
    iblk m c 0 t (ix2 r q) = V m c main_arg1 (ix2 ⟨400 * j + 80 * 0 + r.val, h⟩ q) := by
  subst hj; exact iblk_rows_0 m c t r q h

theorem iblk_rows_1' (c : Dev nD) (t : Fin cfg0.N) (j : ℕ) (hj : t.val % 25 = j) (r : Fin 80) (q : Fin 10000) (h : 400 * j + 80 * 1 + r.val < 10000) :
    iblk m c 1 t (ix2 r q) = V m c main_arg1 (ix2 ⟨400 * j + 80 * 1 + r.val, h⟩ q) := by
  subst hj; exact iblk_rows_1 m c t r q h

theorem iblk_rows_2' (c : Dev nD) (t : Fin cfg0.N) (j : ℕ) (hj : t.val % 25 = j) (r : Fin 80) (q : Fin 10000) (h : 400 * j + 80 * 2 + r.val < 10000) :
    iblk m c 2 t (ix2 r q) = V m c main_arg1 (ix2 ⟨400 * j + 80 * 2 + r.val, h⟩ q) := by
  subst hj; exact iblk_rows_2 m c t r q h

theorem iblk_rows_3' (c : Dev nD) (t : Fin cfg0.N) (j : ℕ) (hj : t.val % 25 = j) (r : Fin 80) (q : Fin 10000) (h : 400 * j + 80 * 3 + r.val < 10000) :
    iblk m c 3 t (ix2 r q) = V m c main_arg1 (ix2 ⟨400 * j + 80 * 3 + r.val, h⟩ q) := by
  subst hj; exact iblk_rows_3 m c t r q h

theorem iblk_rows_4' (c : Dev nD) (t : Fin cfg0.N) (j : ℕ) (hj : t.val % 25 = j) (r : Fin 80) (q : Fin 10000) (h : 400 * j + 80 * 4 + r.val < 10000) :
    iblk m c 4 t (ix2 r q) = V m c main_arg1 (ix2 ⟨400 * j + 80 * 4 + r.val, h⟩ q) := by
  subst hj; exact iblk_rows_4 m c t r q h

theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block is its whole array at every point. -/
theorem iblk_whole_5 (c : Dev nD) (t : Fin cfg0.N) (i : S10000x128.Idx) : iblk m c 5 t i = V m c main_arg0 i := by
  obtain ⟨e0, e1⟩ := idx0_5 t
  show V m c main_arg0 (((cfg0.win 5).blk t).view.emb i) = _
  refine congrArg _ ?_
  funext a; apply Fin.ext
  match a with
  | ⟨0, _⟩ => show win0_5.index t (0 : Fin 2) * 10000 + 1 * (i 0).val = (i 0).val; omega
  | ⟨1, _⟩ => show win0_5.index t (1 : Fin 2) * 128 + 1 * (i 1).val = (i 1).val; omega

theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block is its whole array at every point. -/
theorem iblk_whole_6 (c : Dev nD) (t : Fin cfg0.N) (i : S128x128.Idx) : iblk m c 6 t i = V m c main_arg2 i := by
  obtain ⟨e0, e1⟩ := idx0_6 t
  show V m c main_arg2 (((cfg0.win 6).blk t).view.emb i) = _
  refine congrArg _ ?_
  funext a; apply Fin.ext
  match a with
  | ⟨0, _⟩ => show win0_6.index t (0 : Fin 2) * 128 + 1 * (i 0).val = (i 0).val; omega
  | ⟨1, _⟩ => show win0_6.index t (1 : Fin 2) * 128 + 1 * (i 1).val = (i 1).val; omega

theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block is its whole array at every point. -/
theorem iblk_whole_7 (c : Dev nD) (t : Fin cfg0.N) (i : S1x128.Idx) : iblk m c 7 t i = V m c main_v0 i := by
  obtain ⟨e0, e1⟩ := idx0_7 t
  show V m c main_v0 (((cfg0.win 7).blk t).view.emb i) = _
  refine congrArg _ ?_
  funext a; apply Fin.ext
  match a with
  | ⟨0, _⟩ => show win0_7.index t (0 : Fin 2) * 1 + 1 * (i 0).val = (i 0).val; omega
  | ⟨1, _⟩ => show win0_7.index t (1 : Fin 2) * 128 + 1 * (i 1).val = (i 1).val; omega

/-- The bias row the region finds is the bias vector with a unit axis in front. -/
theorem V_bias_row (c : Dev nD) (j : Fin 128) : V m c main_v0 (ix2 (0 : Fin 1) j) = V m c main_arg3 (ix1 j) := by
  have e : (V m c main_v0 : S1x128.Idx → EReal) = shapeCast S1x128 (m ((c : Thread nD τ).loc main_arg3)) shapeCasts_S128_S1x128 := by
    dsimp only [V, hostOps0]; after_results; rfl
  rw [e, V_main_arg3]
  exact shapeCast_a_1a_apply _ _ _ _

theorem iblk_bias (c : Dev nD) (t : Fin cfg0.N) (j : Fin 128) : iblk m c 7 t (ix2 (0 : Fin 1) j) = V m c main_arg3 (ix1 j) :=
  (iblk_whole_7 m c t _).trans (V_bias_row m c j)

theorem idx0_8 : ∀ t : Fin cfg0.N, win0_8.index t (0 : Fin 2) = (if 25 ≤ t.val then t.val - 25 else 0) ∧ win0_8.index t (1 : Fin 2) = 0 :=
  (by decide +kernel : ∀ t : Fin grid0.N, win0_8.index t (0 : Fin 2) = (if 25 ≤ t.val then t.val - 25 else 0) ∧ win0_8.index t (1 : Fin 2) = 0)

/-- Row `r` of the result block at a point `t` of the second sweep is row `400·(t - 25) + r` of the result array. -/
theorem oblk_apply (c : Dev nD) (t : Fin cfg0.N) (ht : 25 ≤ t.val) (r : Fin 400) (col : Fin 128) (h : 400 * (t.val - 25) + r.val < 10000) :
    oblk m c t (ix2 r col) = Gout m c (ix2 ⟨400 * (t.val - 25) + r.val, h⟩ col) := by
  obtain ⟨e0, e1⟩ := idx0_8 t
  rw [if_pos ht] at e0
  show Gout m c (((cfg0.win 8).blk t).view.emb (ix2 r col)) = _
  refine congrArg _ ?_
  funext a; apply Fin.ext
  match a with
  | ⟨0, _⟩ => show win0_8.index t (0 : Fin 2) * 400 + 1 * r.val = 400 * (t.val - 25) + r.val; omega
  | ⟨1, _⟩ => show win0_8.index t (1 : Fin 2) * 128 + 1 * col.val = col.val; omega

end Cert.KernelIdeal.Exact

end
-- ==== Proof.LibPlainDot.lean ====
/-
  A plain matrix product read at an index.

  For dimension numbers that contract the second axis of an [M, K] table with the first axis of a [K, N] table and keep
  the other two axes in order, the sum over the contraction index of the operands' products is the familiar
  Σ_k lhs (r, k) · rhs (k, c), with k ranging over `Fin K`. The four hypotheses say where the dimension numbers send
  an output index (r, c) and a contraction index: they hold by computation for every such record.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

/-- The contraction sum of a plain [M, K] × [K, N] product at output index `i`, over `k : Fin K`. -/
theorem sum_contr_eq {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

end Idealize.ShloMosaic.PlainDot

end
-- ==== Proof.LibRowReduce.lean ====
/-
  Reductions along the rows of a two-axis table, read at a row.

  Reducing an [a, b] table over its second axis gives, at row p, the sum (or the running maximum from the accumulator's
  value) of the b entries of that row: the general one-axis laws with the inserted coordinate spelt out.
-/
import Idealize.ShloMosaic.PureOps.Ideal.Laws
import Idealize.ShloMosaic.Lib.ValueIdx

noncomputable section

namespace Idealize.ShloMosaic.RowReduce

open Idealize.ShloMosaic Idealize.ShloMosaic.ValueIdx
open scoped BigOperators

variable {φ : FTy}

/-- Putting the column coordinate back into a row index. -/
theorem lift_row {a b : ℕ} (h : (⟨2, ![a, b]⟩ : Shape).Reduces [(1 : Fin 2)] ⟨1, ![a]⟩) (p : Fin a) (k : Fin b) :
    h.lift (ix1 p) k = ix2 p k := by
  funext c
  apply Fin.ext
  show h.liftVal (ix1 p) k.val c = (ix2 p k c).val
  unfold Shape.Reduces.liftVal
  match c with
  | ⟨0, _⟩ => first | rfl | simp
  | ⟨1, _⟩ => first | rfl | simp

/-- The sum over a row. -/
theorem rowSum_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ k : Fin b, src (h.lift (ix1 p) k) = _
  exact Finset.sum_congr rfl fun k _ => congrArg src (lift_row h p k)

/-- The maximum over a row, folded from the accumulator's value. -/
theorem rowMax_apply {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun k => src (h.lift (ix1 p) k)) = _
  exact congrArg (fun f : Fin b → EReal => (Finset.univ : Finset (Fin b)).fold max (Ideal.ofBits φ acc) f) (funext fun k => congrArg src (lift_row h p k))

end Idealize.ShloMosaic.RowReduce

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.KIPayloads.lean ====
/-
  The values the kernel's body computes, read at an index, on the extended reals.

  With every float an extended real and every operation exact, the roundings to the short format are the identity; a
  piece of the first sweep is a block of 80 rows of the product of the propagation matrix with the feature table; a
  piece of the second sweep is, row by row, the shifted logarithm of the softmax of the block's logits, the block's rows
  of the matrix against the stored table, then against the rows of the weights, plus the bias.
-/
import proofs.«179778_g4148938408473_cont_8to1_b_702_13_alg».proof.Proof.Spec
import proofs.«179778_g4148938408473_cont_8to1_b_702_13_alg».proof.Proof.Gen.KernelIdeal.Skeleton
import proofs.«179778_g4148938408473_cont_8to1_b_702_13_alg».proof.Proof.LibPlainDot
import proofs.«179778_g4148938408473_cont_8to1_b_702_13_alg».proof.Proof.LibRowReduce
import proofs.«179778_g4148938408473_cont_8to1_b_702_13_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx
open scoped BigOperators

/-! ## The roundings are the identity -/

/-- Narrowing a block of the matrix to the short format changes nothing. -/
theorem pay1_eq (v : Vec Ideal S80x10000 .f32) : (k0_pay1 (F := Ideal) v : S80x10000.Idx → EReal) = v := rfl
theorem pay2_eq (v : Vec Ideal S80x10000 .f32) : (k0_pay2 (F := Ideal) v : S80x10000.Idx → EReal) = v := rfl
theorem pay3_eq (v : Vec Ideal S80x10000 .f32) : (k0_pay3 (F := Ideal) v : S80x10000.Idx → EReal) = v := rfl
theorem pay4_eq (v : Vec Ideal S80x10000 .f32) : (k0_pay4 (F := Ideal) v : S80x10000.Idx → EReal) = v := rfl
theorem pay5_eq (v : Vec Ideal S80x10000 .f32) : (k0_pay5 (F := Ideal) v : S80x10000.Idx → EReal) = v := rfl

/-- Narrowing the feature table, and recasting it to its own shape, changes nothing. -/
theorem pay6_eq (v : Vec Ideal S10000x128 .f32) : (k0_pay6 (F := Ideal) v : S10000x128.Idx → EReal) = v :=
  shapeCast_self _ _

/-! ## The two matrix products at an index -/

/-- The first product's dimension numbers send output index `(r, c)` and contraction index `q` to `(r, q)` and `(q, c)`. -/
theorem step_lhs0 (i : S80x128.Idx) (q : dot_S80x10000_S10000x128_S80x128_1_0_0_1_n_n.contr.Idx) :
    (dot_S80x10000_S10000x128_S80x128_1_0_0_1_n_n.lhsIdx i q 0).val = (i 0).val := by
  unfold DotDims.lhsIdx
  rw [dif_neg (show ¬(0 : Fin S80x10000.rank) ∈ dot_S80x10000_S10000x128_S80x128_1_0_0_1_n_n.lhsBatch by decide),
    dif_pos (show (0 : Fin S80x10000.rank) ∈ dot_S80x10000_S10000x128_S80x128_1_0_0_1_n_n.lhsNonContracting by decide)]
  rfl
theorem step_lhs1 (i : S80x128.Idx) (q : dot_S80x10000_S10000x128_S80x128_1_0_0_1_n_n.contr.Idx) :
    (dot_S80x10000_S10000x128_S80x128_1_0_0_1_n_n.lhsIdx i q 1).val = (q ⟨0, by decide⟩).val :=
  dot_S80x10000_S10000x128_S80x128_1_0_0_1_n_n.lhsIdx_val_of_single rfl i q
theorem step_rhs0 (i : S80x128.Idx) (q : dot_S80x10000_S10000x128_S80x128_1_0_0_1_n_n.contr.Idx) :
    (dot_S80x10000_S10000x128_S80x128_1_0_0_1_n_n.rhsIdx i q 0).val = (q ⟨0, by decide⟩).val :=
  dot_S80x10000_S10000x128_S80x128_1_0_0_1_n_n.rhsIdx_val_of_single rfl i q
theorem step_rhs1 (i : S80x128.Idx) (q : dot_S80x10000_S10000x128_S80x128_1_0_0_1_n_n.contr.Idx) :
    (dot_S80x10000_S10000x128_S80x128_1_0_0_1_n_n.rhsIdx i q 1).val = (i 1).val := by
  unfold DotDims.rhsIdx
  rw [dif_neg (show ¬(1 : Fin S10000x128.rank) ∈ dot_S80x10000_S10000x128_S80x128_1_0_0_1_n_n.rhsBatch by decide),
    dif_pos (show (1 : Fin S10000x128.rank) ∈ dot_S80x10000_S10000x128_S80x128_1_0_0_1_n_n.rhsNonContracting by decide)]
  rfl

/-- A block of 80 rows of the matrix against a 10000 x 128 table. -/
def blockStep (a : FVec Ideal S80x10000 .bf16) (t : FVec Ideal S10000x128 .bf16) : FVec Ideal S80x128 .f32 :=
  matmul dot_S80x10000_S10000x128_S80x128_1_0_0_1_n_n none a t (constant S80x128 .f32 0x00000000#32)

/-- Entry `(r, c)` of the block product: row `r` of the block against column `c` of the table. -/
theorem blockStep_apply (a : FVec Ideal S80x10000 .bf16) (t : FVec Ideal S10000x128 .bf16) (r : Fin 80) (c : Fin 128) :
    blockStep a t (ix2 r c) = ∑ q : Fin 10000, a (ix2 r q) * t (ix2 q c) := by
  unfold blockStep
  refine (Ideal.matmul_constant_zero_apply _ none a t (ix2 r c)).trans ?_
  exact PlainDot.sum_contr_eq dot_S80x10000_S10000x128_S80x128_1_0_0_1_n_n rfl rfl step_lhs0 step_lhs1 step_rhs0 step_rhs1
    a t (ix2 r c)

/-- The contraction sum of an [M, K] table against an [N, K] table along their second axes, at output index `i`:
    row `i 0` of the one against row `i 1` of the other, over `k : Fin K`. -/
theorem sum_contr_rows_eq {M K N : Nat} {R : Type*} [AddCommMonoid R] [Mul R]
    (d : DotDims ⟨2, ![M, K]⟩ ⟨2, ![N, K]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (i 1).val)
    (r1 : ∀ (i : (⟨2, ![M, N]⟩ : Shape).Idx) (q : d.contr.Idx), (d.rhsIdx i q 1).val = (q ⟨0, by omega⟩).val)
    (lhs : (⟨2, ![M, K]⟩ : Shape).Idx → R) (rhs : (⟨2, ![N, K]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 (i 1) k) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 (i 1) k := funext fun a => Fin.ext (by
    match a with
    | ⟨0, _⟩ => exact r0 _ _
    | ⟨1, _⟩ => exact (r1 _ _).trans hk)
  exact congrArg₂ (· * ·) (congrArg lhs el) (congrArg rhs er)

/-- The second product's dimension numbers send output index `(r, j)` and contraction index `k` to `(r, k)` and `(j, k)`. -/
theorem lin_lhs0 (i : S80x128.Idx) (q : dot_S80x128_S128x128_S80x128_1_1_0_0_n_n.contr.Idx) :
    (dot_S80x128_S128x128_S80x128_1_1_0_0_n_n.lhsIdx i q 0).val = (i 0).val := by
  unfold DotDims.lhsIdx
  rw [dif_neg (show ¬(0 : Fin S80x128.rank) ∈ dot_S80x128_S128x128_S80x128_1_1_0_0_n_n.lhsBatch by decide),
    dif_pos (show (0 : Fin S80x128.rank) ∈ dot_S80x128_S128x128_S80x128_1_1_0_0_n_n.lhsNonContracting by decide)]
  rfl
theorem lin_lhs1 (i : S80x128.Idx) (q : dot_S80x128_S128x128_S80x128_1_1_0_0_n_n.contr.Idx) :
    (dot_S80x128_S128x128_S80x128_1_1_0_0_n_n.lhsIdx i q 1).val = (q ⟨0, by decide⟩).val :=
  dot_S80x128_S128x128_S80x128_1_1_0_0_n_n.lhsIdx_val_of_single rfl i q
theorem lin_rhs0 (i : S80x128.Idx) (q : dot_S80x128_S128x128_S80x128_1_1_0_0_n_n.contr.Idx) :
    (dot_S80x128_S128x128_S80x128_1_1_0_0_n_n.rhsIdx i q 0).val = (i 1).val := by
  unfold DotDims.rhsIdx
  rw [dif_neg (show ¬(0 : Fin S128x128.rank) ∈ dot_S80x128_S128x128_S80x128_1_1_0_0_n_n.rhsBatch by decide),
    dif_pos (show (0 : Fin S128x128.rank) ∈ dot_S80x128_S128x128_S80x128_1_1_0_0_n_n.rhsNonContracting by decide)]
  rfl
theorem lin_rhs1 (i : S80x128.Idx) (q : dot_S80x128_S128x128_S80x128_1_1_0_0_n_n.contr.Idx) :
    (dot_S80x128_S128x128_S80x128_1_1_0_0_n_n.rhsIdx i q 1).val = (q ⟨0, by decide⟩).val :=
  dot_S80x128_S128x128_S80x128_1_1_0_0_n_n.rhsIdx_val_of_single rfl i q

/-! ## A block's logits -/

/-- The logits of a block of 80 rows: the block against the stored table, the result against the rows of the weights,
    plus the bias row spread over the 80 rows. -/
def blockLogits (a : FVec Ideal S80x10000 .bf16) (y : FVec Ideal S10000x128 .bf16) (w : FVec Ideal S128x128 .f32)
    (bb : FVec Ideal S1x128 .f32) : FVec Ideal S80x128 .f32 :=
  addf (matmul dot_S80x128_S128x128_S80x128_1_1_0_0_n_n none (blockStep a y) w (constant S80x128 .f32 0x00000000#32))
    (broadcastTo S80x128 (shapeCast S1x128 bb shapeCasts_S1x128_S1x128) broadcasts_S1x128_S80x128)

/-- Entry `(r, j)` of the logits. -/
theorem blockLogits_apply (a : FVec Ideal S80x10000 .bf16) (y : FVec Ideal S10000x128 .bf16) (w : FVec Ideal S128x128 .f32)
    (bb : FVec Ideal S1x128 .f32) (r : Fin 80) (j : Fin 128) :
    blockLogits a y w bb (ix2 r j)
      = (∑ k : Fin 128, (∑ q : Fin 10000, a (ix2 r q) * y (ix2 q k)) * w (ix2 j k)) + bb (ix2 0 j) := by
  unfold blockLogits
  refine congrArg₂ (· + ·) ?_ ?_
  · refine (Ideal.matmul_constant_zero_apply _ none (blockStep a y) w (ix2 r j)).trans ?_
    refine (sum_contr_rows_eq dot_S80x128_S128x128_S80x128_1_1_0_0_n_n rfl rfl lin_lhs0 lin_lhs1 lin_rhs0 lin_rhs1
      (blockStep a y) w (ix2 r j)).trans ?_
    exact Finset.sum_congr rfl fun k _ => congrArg (· * w (ix2 j k)) (blockStep_apply a y r k)
  · refine (broadcastTo_1b_ab_apply _ broadcasts_S1x128_S80x128 r j).trans ?_
    exact congrFun (shapeCast_self bb shapeCasts_S1x128_S1x128) (ix2 0 j)

/-! ## The shifted log-softmax of a block, row by row -/

/-- Each row's largest entry, spread back over the row. -/
def rowTopSpread (z : FVec Ideal S80x128 .f32) : FVec Ideal S80x128 .f32 :=
  broadcastTo S80x128
    (shapeCast S80x1 (multiReduction .maximumf [1] S80 z 0xFF800000#32 reduces_S80x128_S80 (.inl rfl) rfl) shapeCasts_S80_S80x1)
    broadcasts_S80x1_S80x128

/-- Each row less its largest entry. -/
def shiftRows (z : FVec Ideal S80x128 .f32) : FVec Ideal S80x128 .f32 := subf z (rowTopSpread z)

/-- The sums of the exponentials of each row. -/
def expRowSums (s : FVec Ideal S80x128 .f32) : FVec Ideal S80 .f32 :=
  multiReduction .add [1] S80 (exp s) 0x00000000#32 reduces_S80x128_S80 (.inl rfl) rfl

/-- A table less the logarithm of a per-row quantity, spread over the rows. -/
def lessLogRows (s : FVec Ideal S80x128 .f32) (t : FVec Ideal S80 .f32) : FVec Ideal S80x128 .f32 :=
  subf s (broadcastTo S80x128 (log (shapeCast S80x1 t shapeCasts_S80_S80x1)) broadcasts_S80x1_S80x128)

/-- Row `r`'s largest entry, as the running maximum from the float `-inf`. -/
theorem rowTopSpread_apply (z : FVec Ideal S80x128 .f32) (r : Fin 80) (c : Fin 128) :
    rowTopSpread z (ix2 r c) = Cert.Sgc.rowTop (fun j => z (ix2 r j)) := by
  unfold rowTopSpread
  refine (ColumnLayout.broadcastTo_a1_ab_apply _ broadcasts_S80x1_S80x128 r c).trans ?_
  refine (ColumnLayout.shapeCast_a_a1_apply _ shapeCasts_S80_S80x1 r 0).trans ?_
  exact RowReduce.rowMax_apply z 0xFF800000#32 reduces_S80x128_S80 (.inl rfl) rfl r

theorem shiftRows_apply (z : FVec Ideal S80x128 .f32) (r : Fin 80) (c : Fin 128) :
    shiftRows z (ix2 r c) = z (ix2 r c) - Cert.Sgc.rowTop (fun j => z (ix2 r j)) :=
  congrArg (z (ix2 r c) - ·) (rowTopSpread_apply z r c)

theorem expRowSums_apply (s : FVec Ideal S80x128 .f32) (r : Fin 80) :
    expRowSums s (ix1 r) = ∑ j : Fin 128, Ideal.exp (s (ix2 r j)) := by
  unfold expRowSums
  exact RowReduce.rowSum_apply (exp s) 0x00000000#32 reduces_S80x128_S80 (.inl rfl) rfl r

theorem lessLogRows_apply (s : FVec Ideal S80x128 .f32) (t : FVec Ideal S80 .f32) (r : Fin 80) (c : Fin 128) :
    lessLogRows s t (ix2 r c) = s (ix2 r c) - Ideal.log (t (ix1 r)) := by
  unfold lessLogRows
  refine congrArg (s (ix2 r c) - ·) ?_
  refine (ColumnLayout.broadcastTo_a1_ab_apply _ broadcasts_S80x1_S80x128 r c).trans ?_
  exact congrArg Ideal.log (ColumnLayout.shapeCast_a_a1_apply t shapeCasts_S80_S80x1 r 0)

/-- The shifted log-softmax of every row of a table. -/
def lsmRows (z : FVec Ideal S80x128 .f32) : FVec Ideal S80x128 .f32 :=
  lessLogRows (shiftRows z) (expRowSums (shiftRows z))

/-- Entry `(r, c)` of it is the shifted log-softmax of row `r` at `c`. -/
theorem lsmRows_apply (z : FVec Ideal S80x128 .f32) (r : Fin 80) (c : Fin 128) :
    lsmRows z (ix2 r c) = Cert.Sgc.lsmRow (fun j => z (ix2 r j)) c := by
  unfold lsmRows
  refine (lessLogRows_apply _ _ r c).trans ?_
  rw [expRowSums_apply, shiftRows_apply]
  unfold Cert.Sgc.lsmRow
  exact congrArg (fun f : Fin 128 → EReal => (z (ix2 r c) - Cert.Sgc.rowTop (fun j => z (ix2 r j))) - Ideal.log (∑ j : Fin 128, Ideal.exp (f j)))
    (funext fun j => shiftRows_apply z r j)

/-- The shifted log-softmax of a block's logits at `(r, c)`, in the operands' entries. -/
theorem lsm_blockLogits_apply (a : FVec Ideal S80x10000 .bf16) (y : FVec Ideal S10000x128 .bf16) (w : FVec Ideal S128x128 .f32)
    (bb : FVec Ideal S1x128 .f32) (r : Fin 80) (c : Fin 128) :
    lsmRows (blockLogits a y w bb) (ix2 r c)
      = Cert.Sgc.lsmRow (fun j => (∑ k : Fin 128, (∑ q : Fin 10000, a (ix2 r q) * y (ix2 q k)) * w (ix2 j k)) + bb (ix2 0 j)) c :=
  (lsmRows_apply (blockLogits a y w bb) r c).trans
    (congrArg (fun f : Fin 128 → EReal => Cert.Sgc.lsmRow f c) (funext fun j => blockLogits_apply a y w bb r j))

/-! ## The pieces of the first sweep -/

theorem pay10_eq (a : FVec Ideal S80x10000 .bf16) (xb : Vec Ideal S10000x128 .bf16) :
    (k0_pay10 (F := Ideal) a xb : S80x128.Idx → EReal) = blockStep a xb := shapeCast_self _ _
theorem pay11_eq (a : FVec Ideal S80x10000 .bf16) (xb : Vec Ideal S10000x128 .bf16) :
    (k0_pay11 (F := Ideal) a xb : S80x128.Idx → EReal) = blockStep a xb := shapeCast_self _ _
theorem pay12_eq (a : FVec Ideal S80x10000 .bf16) (xb : Vec Ideal S10000x128 .bf16) :
    (k0_pay12 (F := Ideal) a xb : S80x128.Idx → EReal) = blockStep a xb := shapeCast_self _ _
theorem pay13_eq (a : FVec Ideal S80x10000 .bf16) (xb : Vec Ideal S10000x128 .bf16) :
    (k0_pay13 (F := Ideal) a xb : S80x128.Idx → EReal) = blockStep a xb := shapeCast_self _ _
theorem pay7_eq (v8 : Vec Ideal S80x10000 .f32) (xb : Vec Ideal S10000x128 .bf16) :
    (k0_pay7 (F := Ideal) v8 xb : S80x128.Idx → EReal) = blockStep v8 xb := shapeCast_self _ _

/-- A piece of the first sweep is a block of 80 rows of the matrix against the feature table. -/
theorem pay10_apply (a : FVec Ideal S80x10000 .bf16) (xb : Vec Ideal S10000x128 .bf16) (r : Fin 80) (c : Fin 128) :
    k0_pay10 (F := Ideal) a xb (ix2 r c) = ∑ q : Fin 10000, a (ix2 r q) * xb (ix2 q c) :=
  (congrFun (pay10_eq a xb) (ix2 r c)).trans (blockStep_apply a xb r c)
theorem pay11_apply (a : FVec Ideal S80x10000 .bf16) (xb : Vec Ideal S10000x128 .bf16) (r : Fin 80) (c : Fin 128) :
    k0_pay11 (F := Ideal) a xb (ix2 r c) = ∑ q : Fin 10000, a (ix2 r q) * xb (ix2 q c) :=
  (congrFun (pay11_eq a xb) (ix2 r c)).trans (blockStep_apply a xb r c)
theorem pay12_apply (a : FVec Ideal S80x10000 .bf16) (xb : Vec Ideal S10000x128 .bf16) (r : Fin 80) (c : Fin 128) :
    k0_pay12 (F := Ideal) a xb (ix2 r c) = ∑ q : Fin 10000, a (ix2 r q) * xb (ix2 q c) :=
  (congrFun (pay12_eq a xb) (ix2 r c)).trans (blockStep_apply a xb r c)
theorem pay13_apply (a : FVec Ideal S80x10000 .bf16) (xb : Vec Ideal S10000x128 .bf16) (r : Fin 80) (c : Fin 128) :
    k0_pay13 (F := Ideal) a xb (ix2 r c) = ∑ q : Fin 10000, a (ix2 r q) * xb (ix2 q c) :=
  (congrFun (pay13_eq a xb) (ix2 r c)).trans (blockStep_apply a xb r c)
theorem pay7_apply (v8 : Vec Ideal S80x10000 .f32) (xb : Vec Ideal S10000x128 .bf16) (r : Fin 80) (c : Fin 128) :
    k0_pay7 (F := Ideal) v8 xb (ix2 r c) = ∑ q : Fin 10000, v8 (ix2 r q) * xb (ix2 q c) :=
  (congrFun (pay7_eq v8 xb) (ix2 r c)).trans (blockStep_apply v8 xb r c)

/-! ## The pieces of the second sweep -/

theorem pay14_eq (a : FVec Ideal S80x10000 .bf16) (y : Vec Ideal S10000x128 .bf16) (w : Vec Ideal S128x128 .f32) (bb : Vec Ideal S1x128 .f32) :
    k0_pay14 (F := Ideal) a y w bb = lsmRows (blockLogits a y w bb) := rfl
theorem pay15_eq (a : FVec Ideal S80x10000 .bf16) (y : Vec Ideal S10000x128 .bf16) (w : Vec Ideal S128x128 .f32) (bb : Vec Ideal S1x128 .f32) :
    k0_pay15 (F := Ideal) a y w bb = lsmRows (blockLogits a y w bb) := rfl
theorem pay16_eq (a : FVec Ideal S80x10000 .bf16) (y : Vec Ideal S10000x128 .bf16) (w : Vec Ideal S128x128 .f32) (bb : Vec Ideal S1x128 .f32) :
    k0_pay16 (F := Ideal) a y w bb = lsmRows (blockLogits a y w bb) := rfl
theorem pay17_eq (a : FVec Ideal S80x10000 .bf16) (y : Vec Ideal S10000x128 .bf16) (w : Vec Ideal S128x128 .f32) (bb : Vec Ideal S1x128 .f32) :
    k0_pay17 (F := Ideal) a y w bb = shiftRows (blockLogits a y w bb) := rfl
theorem pay18_eq (a : FVec Ideal S80x10000 .bf16) (y : Vec Ideal S10000x128 .bf16) (w : Vec Ideal S128x128 .f32) (bb : Vec Ideal S1x128 .f32) :
    k0_pay18 (F := Ideal) a y w bb = expRowSums (shiftRows (blockLogits a y w bb)) := rfl
theorem pay8_eq (s : FVec Ideal S80x128 .f32) (t : FVec Ideal S80 .f32) : k0_pay8 (F := Ideal) s t = lessLogRows s t := rfl
theorem pay9_eq (v8 : Vec Ideal S80x10000 .f32) (y : Vec Ideal S10000x128 .bf16) (w : Vec Ideal S128x128 .f32) (bb : Vec Ideal S1x128 .f32) :
    k0_pay9 (F := Ideal) v8 y w bb = lsmRows (blockLogits v8 y w bb) := rfl

/-- A piece of the second sweep is, row by row, the shifted log-softmax of the block's logits. -/
theorem pay14_apply (a : FVec Ideal S80x10000 .bf16) (y : Vec Ideal S10000x128 .bf16) (w : Vec Ideal S128x128 .f32) (bb : Vec Ideal S1x128 .f32)
    (r : Fin 80) (c : Fin 128) :
    k0_pay14 (F := Ideal) a y w bb (ix2 r c)
      = Cert.Sgc.lsmRow (fun j => (∑ k : Fin 128, (∑ q : Fin 10000, a (ix2 r q) * y (ix2 q k)) * w (ix2 j k)) + bb (ix2 0 j)) c :=
  (congrFun (pay14_eq a y w bb) (ix2 r c)).trans (lsm_blockLogits_apply a y w bb r c)
theorem pay15_apply (a : FVec Ideal S80x10000 .bf16) (y : Vec Ideal S10000x128 .bf16) (w : Vec Ideal S128x128 .f32) (bb : Vec Ideal S1x128 .f32)
    (r : Fin 80) (c : Fin 128) :
    k0_pay15 (F := Ideal) a y w bb (ix2 r c)
      = Cert.Sgc.lsmRow (fun j => (∑ k : Fin 128, (∑ q : Fin 10000, a (ix2 r q) * y (ix2 q k)) * w (ix2 j k)) + bb (ix2 0 j)) c :=
  (congrFun (pay15_eq a y w bb) (ix2 r c)).trans (lsm_blockLogits_apply a y w bb r c)
theorem pay16_apply (a : FVec Ideal S80x10000 .bf16) (y : Vec Ideal S10000x128 .bf16) (w : Vec Ideal S128x128 .f32) (bb : Vec Ideal S1x128 .f32)
    (r : Fin 80) (c : Fin 128) :
    k0_pay16 (F := Ideal) a y w bb (ix2 r c)
      = Cert.Sgc.lsmRow (fun j => (∑ k : Fin 128, (∑ q : Fin 10000, a (ix2 r q) * y (ix2 q k)) * w (ix2 j k)) + bb (ix2 0 j)) c :=
  (congrFun (pay16_eq a y w bb) (ix2 r c)).trans (lsm_blockLogits_apply a y w bb r c)
/-- The fourth piece is stored from its shifted rows and the sums of their exponentials. -/
theorem pay8_pay17_pay18_apply (a : FVec Ideal S80x10000 .bf16) (y : Vec Ideal S10000x128 .bf16) (w : Vec Ideal S128x128 .f32)
    (bb : Vec Ideal S1x128 .f32) (r : Fin 80) (c : Fin 128) :
    k0_pay8 (F := Ideal) (k0_pay17 a y w bb) (k0_pay18 a y w bb) (ix2 r c)
      = Cert.Sgc.lsmRow (fun j => (∑ k : Fin 128, (∑ q : Fin 10000, a (ix2 r q) * y (ix2 q k)) * w (ix2 j k)) + bb (ix2 0 j)) c := by
  rw [pay17_eq, pay18_eq, pay8_eq]
  exact lsm_blockLogits_apply a y w bb r c
theorem pay9_apply (v8 : Vec Ideal S80x10000 .f32) (y : Vec Ideal S10000x128 .bf16) (w : Vec Ideal S128x128 .f32) (bb : Vec Ideal S1x128 .f32)
    (r : Fin 80) (c : Fin 128) :
    k0_pay9 (F := Ideal) v8 y w bb (ix2 r c)
      = Cert.Sgc.lsmRow (fun j => (∑ k : Fin 128, (∑ q : Fin 10000, v8 (ix2 r q) * y (ix2 q k)) * w (ix2 j k)) + bb (ix2 0 j)) c :=
  (congrFun (pay9_eq v8 y w bb) (ix2 r c)).trans (lsm_blockLogits_apply v8 y w bb r c)

end Cert.KernelIdeal.Payloads

end
-- ==== Proof.KI.ScratchRows.lean ====
/-
  What the two scratch buffers hold after a point of the first sweep, on the extended reals.

  The first scratch is stored whole, once, at the first point: whatever it held, it then reads as the feature table.
  The second scratch receives, at point `t` of the first sweep, five blocks of 80 rows at rows `400 t + 80 s`
  (`s = 0 … 4`), block `s` being the rows `400 t + 80 s …` of the matrix against the feature table. An index below row
  `400 t` lies under none of the five blocks and keeps what it held; an index in rows `[400 t, 400 (t + 1))` lies under
  exactly one of them, the one numbered by the quotient of its row offset by 80. So if the rows below `400 t` were rows of
  the product `A · x` before the point, the rows below `400 (t + 1)` are after it.
-/
import proofs.«179778_g4148938408473_cont_8to1_b_702_13_alg».proof.Proof.KI.ExactDefs
import proofs.«179778_g4148938408473_cont_8to1_b_702_13_alg».proof.Proof.KIPayloads
import Idealize.ShloMosaic.Lib.Tactic
import Idealize.ShloMosaic.Lib.WritesUnit
import Idealize.ShloMosaic.Lib.Pipeline.Value
import Idealize.ShloMosaic.Lib.Pipeline.FrameBody

set_option maxRecDepth 16384

noncomputable section

namespace Cert.KernelIdeal.Exact

open Cert.KernelIdeal Cert.KernelIdeal.Gen Cert.KernelIdeal.Frame
open Idealize.ShloMosaic Idealize.ShloMosaic.TcCoe Idealize.ShloMosaic.ValueIdx Idealize.ShloMosaic.Tactic
open Idealize.SL Idealize.SL.Sem
open scoped BigOperators

namespace ScratchRows

/-! ## Five blocks of 80 rows, read back -/

section FiveBlocks

variable {sg : RefSig} {κ : Kind} {sp : Space} {e : EltTy} {Val : EltTy → Type}
  (v : View sg κ sp S10000x128 e) (f : v.ty.Contents Val)

/-- Five stores of 80 whole rows each, at rows `B`, `B + 80`, …, `B + 320` (the last store first in the list), over
    contents that agree with a table `G` below row `B`: if block `s`'s payload is `G` on rows `B + 80 s …`, what reads
    back agrees with `G` below row `B + 400`. -/
theorem read_five_blocks (B : ℕ) {o0 o1 o2 o3 o4 : Fin 2 → ℕ}
    (inb0 : ∀ a, o0 a + S80x128.size a ≤ S10000x128.size a)
    (inb1 : ∀ a, o1 a + S80x128.size a ≤ S10000x128.size a)
    (inb2 : ∀ a, o2 a + S80x128.size a ≤ S10000x128.size a)
    (inb3 : ∀ a, o3 a + S80x128.size a ≤ S10000x128.size a)
    (inb4 : ∀ a, o4 a + S80x128.size a ≤ S10000x128.size a)
    (p0 : (Rect.unit (s := S10000x128) o0 S80x128.size inb0).shape.Idx → Val e)
    (p1 : (Rect.unit (s := S10000x128) o1 S80x128.size inb1).shape.Idx → Val e)
    (p2 : (Rect.unit (s := S10000x128) o2 S80x128.size inb2).shape.Idx → Val e)
    (p3 : (Rect.unit (s := S10000x128) o3 S80x128.size inb3).shape.Idx → Val e)
    (p4 : (Rect.unit (s := S10000x128) o4 S80x128.size inb4).shape.Idx → Val e)
    (e0 : o0 = ![B + 80 * 0, 0]) (e1 : o1 = ![B + 80 * 1, 0]) (e2 : o2 = ![B + 80 * 2, 0])
    (e3 : o3 = ![B + 80 * 3, 0]) (e4 : o4 = ![B + 80 * 4, 0])
    (G : S10000x128.Idx → Val e)
    (hprior : ∀ i : S10000x128.Idx, (i 0).val < B → v.read Val f i = G i)
    (h0 : ∀ (r : Fin 80) (col : Fin 128) (h : B + 80 * 0 + r.val < 10000), p0 (ix2 r col) = G (ix2 ⟨B + 80 * 0 + r.val, h⟩ col))
    (h1 : ∀ (r : Fin 80) (col : Fin 128) (h : B + 80 * 1 + r.val < 10000), p1 (ix2 r col) = G (ix2 ⟨B + 80 * 1 + r.val, h⟩ col))
    (h2 : ∀ (r : Fin 80) (col : Fin 128) (h : B + 80 * 2 + r.val < 10000), p2 (ix2 r col) = G (ix2 ⟨B + 80 * 2 + r.val, h⟩ col))
    (h3 : ∀ (r : Fin 80) (col : Fin 128) (h : B + 80 * 3 + r.val < 10000), p3 (ix2 r col) = G (ix2 ⟨B + 80 * 3 + r.val, h⟩ col))
    (h4 : ∀ (r : Fin 80) (col : Fin 128) (h : B + 80 * 4 + r.val < 10000), p4 (ix2 r col) = G (ix2 ⟨B + 80 * 4 + r.val, h⟩ col))
    (i : S10000x128.Idx) (hi : (i 0).val < B + 400) :
    v.read Val (v.writes Val f
        [⟨Rect.unit (s := S10000x128) o4 S80x128.size inb4, p4⟩, ⟨Rect.unit (s := S10000x128) o3 S80x128.size inb3, p3⟩,
         ⟨Rect.unit (s := S10000x128) o2 S80x128.size inb2, p2⟩, ⟨Rect.unit (s := S10000x128) o1 S80x128.size inb1, p1⟩,
         ⟨Rect.unit (s := S10000x128) o0 S80x128.size inb0, p0⟩]) i = G i := by
  have h10 : (i 0).val < 10000 := (i 0).isLt
  -- an index whose row is below a block's first row reads what the earlier stores left
  have skip4 := fun (hlt : (i 0).val < B + 80 * 4) (L : List (View.Piece Val S10000x128 e)) =>
    View.read_writes_cons_rows_of_not_mem (W := 80) v f inb4 p4 L i e4 rfl (Or.inl hlt)
  have skip3 := fun (hlt : (i 0).val < B + 80 * 3) (L : List (View.Piece Val S10000x128 e)) =>
    View.read_writes_cons_rows_of_not_mem (W := 80) v f inb3 p3 L i e3 rfl (Or.inl hlt)
  have skip2 := fun (hlt : (i 0).val < B + 80 * 2) (L : List (View.Piece Val S10000x128 e)) =>
    View.read_writes_cons_rows_of_not_mem (W := 80) v f inb2 p2 L i e2 rfl (Or.inl hlt)
  have skip1 := fun (hlt : (i 0).val < B + 80 * 1) (L : List (View.Piece Val S10000x128 e)) =>
    View.read_writes_cons_rows_of_not_mem (W := 80) v f inb1 p1 L i e1 rfl (Or.inl hlt)
  have skip0 := fun (hlt : (i 0).val < B + 80 * 0) (L : List (View.Piece Val S10000x128 e)) =>
    View.read_writes_cons_rows_of_not_mem (W := 80) v f inb0 p0 L i e0 rfl (Or.inl hlt)
  -- the index is its two coordinates
  have hix : ∀ (R : Fin 10000), R = i 0 → ix2 R (i 1) = i := fun R hR => by rw [hR]; exact (eq_ix2 i).symm
  by_cases hB : (i 0).val < B
  · -- below every block: the prior contents
    refine (skip4 (by omega) _).trans ((skip3 (by omega) _).trans ((skip2 (by omega) _).trans
      ((skip1 (by omega) _).trans ((skip0 (by omega) _).trans ?_))))
    exact hprior i hB
  · rcases (by omega : (i 0).val < B + 80 * 1 ∨ (B + 80 * 1 ≤ (i 0).val ∧ (i 0).val < B + 80 * 2)
        ∨ (B + 80 * 2 ≤ (i 0).val ∧ (i 0).val < B + 80 * 3) ∨ (B + 80 * 3 ≤ (i 0).val ∧ (i 0).val < B + 80 * 4)
        ∨ (B + 80 * 4 ≤ (i 0).val)) with hc | hc | hc | hc | hc
    · -- block 0
      have hr : (i 0).val - (B + 80 * 0) < 80 := by omega
      have hlt : B + 80 * 0 + ((i 0).val - (B + 80 * 0)) < 10000 := by omega
      refine (skip4 (by omega) _).trans ((skip3 (by omega) _).trans ((skip2 (by omega) _).trans ((skip1 (by omega) _).trans ?_)))
      refine (View.read_writes_cons_rows_of_mem v f inb0 p0 [] i (ix2 ⟨(i 0).val - (B + 80 * 0), hr⟩ (i 1)) e0
        (by show (i 0).val = B + 80 * 0 + ((i 0).val - (B + 80 * 0)); omega) rfl).trans ?_
      refine (h0 ⟨(i 0).val - (B + 80 * 0), hr⟩ (i 1) hlt).trans (congrArg G (hix _ (Fin.ext ?_)))
      show B + 80 * 0 + ((i 0).val - (B + 80 * 0)) = (i 0).val; omega
    · -- block 1
      have hr : (i 0).val - (B + 80 * 1) < 80 := by omega
      have hlt : B + 80 * 1 + ((i 0).val - (B + 80 * 1)) < 10000 := by omega
      refine (skip4 (by omega) _).trans ((skip3 (by omega) _).trans ((skip2 (by omega) _).trans ?_))
      refine (View.read_writes_cons_rows_of_mem v f inb1 p1 _ i (ix2 ⟨(i 0).val - (B + 80 * 1), hr⟩ (i 1)) e1
        (by show (i 0).val = B + 80 * 1 + ((i 0).val - (B + 80 * 1)); omega) rfl).trans ?_
      refine (h1 ⟨(i 0).val - (B + 80 * 1), hr⟩ (i 1) hlt).trans (congrArg G (hix _ (Fin.ext ?_)))
      show B + 80 * 1 + ((i 0).val - (B + 80 * 1)) = (i 0).val; omega
    · -- block 2
      have hr : (i 0).val - (B + 80 * 2) < 80 := by omega
      have hlt : B + 80 * 2 + ((i 0).val - (B + 80 * 2)) < 10000 := by omega
      refine (skip4 (by omega) _).trans ((skip3 (by omega) _).trans ?_)
      refine (View.read_writes_cons_rows_of_mem v f inb2 p2 _ i (ix2 ⟨(i 0).val - (B + 80 * 2), hr⟩ (i 1)) e2
        (by show (i 0).val = B + 80 * 2 + ((i 0).val - (B + 80 * 2)); omega) rfl).trans ?_
      refine (h2 ⟨(i 0).val - (B + 80 * 2), hr⟩ (i 1) hlt).trans (congrArg G (hix _ (Fin.ext ?_)))
      show B + 80 * 2 + ((i 0).val - (B + 80 * 2)) = (i 0).val; omega
    · -- block 3
      have hr : (i 0).val - (B + 80 * 3) < 80 := by omega
      have hlt : B + 80 * 3 + ((i 0).val - (B + 80 * 3)) < 10000 := by omega
      refine (skip4 (by omega) _).trans ?_
      refine (View.read_writes_cons_rows_of_mem v f inb3 p3 _ i (ix2 ⟨(i 0).val - (B + 80 * 3), hr⟩ (i 1)) e3
        (by show (i 0).val = B + 80 * 3 + ((i 0).val - (B + 80 * 3)); omega) rfl).trans ?_
      refine (h3 ⟨(i 0).val - (B + 80 * 3), hr⟩ (i 1) hlt).trans (congrArg G (hix _ (Fin.ext ?_)))
      show B + 80 * 3 + ((i 0).val - (B + 80 * 3)) = (i 0).val; omega
    · -- block 4
      have hr : (i 0).val - (B + 80 * 4) < 80 := by omega
      have hlt : B + 80 * 4 + ((i 0).val - (B + 80 * 4)) < 10000 := by omega
      refine (View.read_writes_cons_rows_of_mem v f inb4 p4 _ i (ix2 ⟨(i 0).val - (B + 80 * 4), hr⟩ (i 1)) e4
        (by show (i 0).val = B + 80 * 4 + ((i 0).val - (B + 80 * 4)); omega) rfl).trans ?_
      refine (h4 ⟨(i 0).val - (B + 80 * 4), hr⟩ (i 1) hlt).trans (congrArg G (hix _ (Fin.ext ?_)))
      show B + 80 * 4 + ((i 0).val - (B + 80 * 4)) = (i 0).val; omega

end FiveBlocks

/-! ## Offsets and whole loads -/

/-- The second coordinate of grid point `t` is `t` modulo 25. -/
theorem coords_snd : ∀ t : Fin cfg0.N, ((grid0.coords t) 1).val = t.val % 25 :=
  (by decide +kernel : ∀ t : Fin grid0.N, ((grid0.coords t) 1).val = t.val % 25)

/-- The five blocks' offsets at a point whose second coordinate is `j`: rows `400 j + 80 s`, column 0. -/
theorem off1_0 (i : grid0.Coords) (j : ℕ) (hj : (i 1).val = j) : k0_off1 i 0#32 = ![400 * j + 80 * 0, 0] := by
  subst hj; exact k0_off1_eq i ⟨0, by decide⟩
theorem off1_1 (i : grid0.Coords) (j : ℕ) (hj : (i 1).val = j) : k0_off1 i 80#32 = ![400 * j + 80 * 1, 0] := by
  subst hj; exact k0_off1_eq i ⟨1, by decide⟩
theorem off1_2 (i : grid0.Coords) (j : ℕ) (hj : (i 1).val = j) : k0_off1 i 160#32 = ![400 * j + 80 * 2, 0] := by
  subst hj; exact k0_off1_eq i ⟨2, by decide⟩
theorem off1_3 (i : grid0.Coords) (j : ℕ) (hj : (i 1).val = j) : k0_off1 i 240#32 = ![400 * j + 80 * 3, 0] := by
  subst hj; exact k0_off1_eq i ⟨3, by decide⟩
theorem off1_4 (i : grid0.Coords) (j : ℕ) (hj : (i 1).val = j) : k0_off1 i 320#32 = ![400 * j + 80 * 4, 0] := by
  subst hj; exact k0_off1_eq i ⟨4, by decide⟩

/-- The zero offsets of a rank-2 buffer. -/
theorem zero2 : (![0, 0] : Fin 2 → ℕ) = fun _ => 0 := by
  funext a; fin_cases a <;> rfl

/-- A load of a whole buffer that holds `x` reads `x`. -/
theorem load_whole {S : Shape} {e : EltTy} (mr : Memref sig .tc .vmem S e) (h : mr.IsWhole)
    {off : Fin S.rank → ℕ} (hz : off = fun _ => 0) (inb : ∀ a, off a + S.size a ≤ S.size a) (x : Vec Ideal S e) :
    View.readAt (Elt Ideal) mr.view (Rect.unit off S.size inb).toLoadRect (h.unread x) = x := by
  rw [View.readAt_eq_ld, h.read_unread, View.ld_unit_zero hz]

/-! ## A block of rows of the matrix against the feature table -/

/-- If the block `a` holds rows `R0 …` of `A` and the table is `X`, row `r` of the block against column `col` of the
    table is entry `(R0 + r, col)` of the product `A · X`. -/
theorem block_row (A : S10000x10000.Idx → EReal) (X : S10000x128.Idx → EReal)
    (a : S80x10000.Idx → EReal) (xbv : S10000x128.Idx → EReal) (R0 : ℕ)
    (ha : ∀ (r : Fin 80) (q : Fin 10000) (h : R0 + r.val < 10000), a (ix2 r q) = A (ix2 ⟨R0 + r.val, h⟩ q))
    (hx : ∀ i, xbv i = X i) (r : Fin 80) (col : Fin 128) (h : R0 + r.val < 10000) :
    ∑ q : Fin 10000, a (ix2 r q) * xbv (ix2 q col) = Cert.Sgc.step A X ⟨R0 + r.val, h⟩ col := by
  unfold Cert.Sgc.step
  exact Finset.sum_congr rfl fun q _ => by rw [ha r q h, hx]

end ScratchRows

open ScratchRows

/-! ## The statements -/

variable (m : (ℓ : Loc nD τ sig) → Buf (Elt Ideal) ℓ)

/-- Row `r` of stream `s`'s block at a point whose second coordinate is `j` is row `400 j + 80 s + r` of the matrix. -/
def IsRows (c : Dev nD) (j : ℕ) (s : ℕ) (x : Vec Ideal S80x10000 .f32) : Prop :=
  ∀ (r : Fin 80) (q : Fin 10000) (h : 400 * j + 80 * s + r.val < 10000), x (ix2 r q) = V m c main_arg1 (ix2 ⟨400 * j + 80 * s + r.val, h⟩ q)

/-- After the first point the first scratch reads as the feature table, whatever it held. -/
theorem scratch0_after_first (c : Dev nD) (t : Fin cfg0.N) (ht : t.val = 0) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : cond0_0 (grid0.coords t)) (hc1 : cond0_1 (grid0.coords t)) (hc2 : ¬cond0_2 (grid0.coords t))
    (x0 x1 x2 x3 x4 : Vec Ideal S80x10000 .f32) (x5 : Vec Ideal S10000x128 .f32) (hx5 : ∀ i, x5 i = V m c main_arg0 i)
    (d1 : Vec Ideal S10000x128 .bf16) (f : arg11.view.ty.Contents (Elt Ideal)) :
    arg11.view.read (Elt Ideal) (arg11.view.writes (Elt Ideal) f (kernelRun0_A c (grid0.coords t) arg2 harg2 arg3 harg3 arg4 harg4 arg5 harg5 arg6 harg6 arg7 harg7 arg8 harg8 arg9 harg9 arg10 harg10 arg11 harg11 arg12 harg12 hc0 hc1 hc2 x0 x1 x2 x3 x4 x5 d1).1) = xb m c := by
  unfold kernelRun0_A
  dsimp only
  funext i
  -- the one store covers the whole buffer: index `i` is its own position in the stored rectangle
  refine (View.read_writes_cons_unit_of_mem arg11.view f inb_S10000x128_S10000x128_0_0 _ [] i i zero2
    (fun a => (Nat.zero_add _).symm)).trans ?_
  exact (congrFun (Payloads.pay6_eq _) i).trans ((congrFun (load_whole arg7 harg7 zero2 _ x5) i).trans (hx5 i))

/-- After the first point the first 400 rows of the second scratch are rows of `A · x`. -/
theorem rows_after_first (c : Dev nD) (t : Fin cfg0.N) (ht : t.val = 0) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : cond0_0 (grid0.coords t)) (hc1 : cond0_1 (grid0.coords t)) (hc2 : ¬cond0_2 (grid0.coords t))
    (x0 x1 x2 x3 x4 : Vec Ideal S80x10000 .f32) (x5 : Vec Ideal S10000x128 .f32) (hx5 : ∀ i, x5 i = V m c main_arg0 i)
    (h0 : IsRows m c 0 0 x0) (h1 : IsRows m c 0 1 x1) (h2 : IsRows m c 0 2 x2) (h3 : IsRows m c 0 3 x3) (h4 : IsRows m c 0 4 x4)
    (d1 : Vec Ideal S10000x128 .bf16) :
    RowsDone m c 0 (arg12.view.read (Elt Ideal) (arg12.view.writes (Elt Ideal) (harg12.unread d1)
      (kernelRun0_A c (grid0.coords t) arg2 harg2 arg3 harg3 arg4 harg4 arg5 harg5 arg6 harg6 arg7 harg7 arg8 harg8 arg9 harg9 arg10 harg10 arg11 harg11 arg12 harg12 hc0 hc1 hc2 x0 x1 x2 x3 x4 x5 d1).2.1)) := by
  have hj : ((grid0.coords t) 1).val = 0 := by rw [coords_snd, ht]
  unfold RowsDone
  intro i hi
  unfold kernelRun0_A
  dsimp only
  sl_unfold_run_names
  -- the feature table as the pieces see it: the first scratch read back after its one whole store
  have hX : ∀ (inb' : ∀ a, (![0, 0] : Fin 2 → ℕ) a + S10000x128.size a ≤ S10000x128.size a) (k : S10000x128.Idx),
      arg11.view.readCov (Val := Elt Ideal) [⟨Rect.unit (s := S10000x128) ![0, 0] S10000x128.size inb_S10000x128_S10000x128_0_0,
          k0_pay6 (View.readAt (Elt Ideal) arg7.view (Rect.unit (s := S10000x128) ![0, 0] S10000x128.size inb_S10000x128_S10000x128_0_0).toLoadRect (harg7.unread x5))⟩]
        (Rect.unit (s := S10000x128) ![0, 0] S10000x128.size inb').toLoadRect k = V m c main_arg0 k := fun inb' k =>
    (congrFun (View.readCov_unit_zero arg11.view zero2 inb_S10000x128_S10000x128_0_0 _) k).trans
      ((congrFun (Payloads.pay6_eq _) k).trans ((congrFun (load_whole arg7 harg7 zero2 _ x5) k).trans (hx5 k)))
  refine read_five_blocks arg12.view (harg12.unread d1) (400 * 0) _ _ _ _ _ _ _ _ _ _
    (off1_0 _ 0 hj) (off1_1 _ 0 hj) (off1_2 _ 0 hj) (off1_3 _ 0 hj) (off1_4 _ 0 hj)
    (Yfull m c) (fun k hk => absurd hk (by omega)) ?_ ?_ ?_ ?_ ?_ i (by omega)
  · intro r col h
    refine (Payloads.pay10_apply _ _ r col).trans ?_
    exact block_row (V m c main_arg1) (V m c main_arg0) _ _ (400 * 0 + 80 * 0)
      (fun r q h => (congrFun ((Payloads.pay1_eq _).trans (load_whole arg2 harg2 zero2 _ x0)) (ix2 r q)).trans (h0 r q h))
      (hX _) r col h
  · intro r col h
    refine (Payloads.pay11_apply _ _ r col).trans ?_
    exact block_row (V m c main_arg1) (V m c main_arg0) _ _ (400 * 0 + 80 * 1)
      (fun r q h => (congrFun ((Payloads.pay2_eq _).trans (load_whole arg3 harg3 zero2 _ x1)) (ix2 r q)).trans (h1 r q h))
      (hX _) r col h
  · intro r col h
    refine (Payloads.pay12_apply _ _ r col).trans ?_
    exact block_row (V m c main_arg1) (V m c main_arg0) _ _ (400 * 0 + 80 * 2)
      (fun r q h => (congrFun ((Payloads.pay3_eq _).trans (load_whole arg4 harg4 zero2 _ x2)) (ix2 r q)).trans (h2 r q h))
      (hX _) r col h
  · intro r col h
    refine (Payloads.pay13_apply _ _ r col).trans ?_
    exact block_row (V m c main_arg1) (V m c main_arg0) _ _ (400 * 0 + 80 * 3)
      (fun r q h => (congrFun ((Payloads.pay4_eq _).trans (load_whole arg5 harg5 zero2 _ x3)) (ix2 r q)).trans (h3 r q h))
      (hX _) r col h
  · intro r col h
    refine (Payloads.pay7_apply _ _ r col).trans ?_
    exact block_row (V m c main_arg1) (V m c main_arg0) _ _ (400 * 0 + 80 * 4)
      (fun r q h => (congrFun (load_whole arg6 harg6 zero2 _ x4) (ix2 r q)).trans (h4 r q h))
      (hX _) r col h

/-- After a later point `t` of the first sweep the first `400 (t + 1)` rows of the second scratch are rows of `A · x`,
    if the first `400 t` were before it. -/
theorem rows_after_later (c : Dev nD) (t : Fin cfg0.N) (ht0 : 0 < t.val) (ht : t.val < 25) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : ¬cond0_0 (grid0.coords t)) (hc1 : cond0_1 (grid0.coords t)) (hc2 : ¬cond0_2 (grid0.coords t))
    (x0 x1 x2 x3 x4 : Vec Ideal S80x10000 .f32)
    (h0 : IsRows m c t.val 0 x0) (h1 : IsRows m c t.val 1 x1) (h2 : IsRows m c t.val 2 x2) (h3 : IsRows m c t.val 3 x3) (h4 : IsRows m c t.val 4 x4)
    (y : Vec Ideal S10000x128 .bf16) (hy : RowsDone m c (t.val - 1) y) :
    RowsDone m c t.val (arg12.view.read (Elt Ideal) (arg12.view.writes (Elt Ideal) (harg12.unread y)
      (kernelRun0_B c (grid0.coords t) arg2 harg2 arg3 harg3 arg4 harg4 arg5 harg5 arg6 harg6 arg7 harg7 arg8 harg8 arg9 harg9 arg10 harg10 arg11 harg11 arg12 harg12 hc0 hc1 hc2 x0 x1 x2 x3 x4 (xb m c) y).1)) := by
  have hj : ((grid0.coords t) 1).val = t.val := by rw [coords_snd]; exact Nat.mod_eq_of_lt ht
  unfold RowsDone at hy ⊢
  intro i hi
  unfold kernelRun0_B
  dsimp only
  -- the feature table as the pieces see it: a load of the whole first scratch
  have hX : ∀ k : S10000x128.Idx,
      View.readAt (Elt Ideal) arg11.view (Rect.unit (s := S10000x128) ![0, 0] S10000x128.size inb_S10000x128_S10000x128_0_0).toLoadRect
        (harg11.unread (xb m c)) k = V m c main_arg0 k := fun k =>
    congrFun (load_whole arg11 harg11 zero2 _ (xb m c)) k
  refine read_five_blocks arg12.view (harg12.unread y) (400 * t.val) _ _ _ _ _ _ _ _ _ _
    (off1_0 _ t.val hj) (off1_1 _ t.val hj) (off1_2 _ t.val hj) (off1_3 _ t.val hj) (off1_4 _ t.val hj)
    (Yfull m c) (fun k hk => (congrFun (harg12.read_unread y) k).trans (hy k (by omega))) ?_ ?_ ?_ ?_ ?_ i (by omega)
  · intro r col h
    refine (Payloads.pay10_apply _ _ r col).trans ?_
    exact block_row (V m c main_arg1) (V m c main_arg0) _ _ (400 * t.val + 80 * 0)
      (fun r q h => (congrFun ((Payloads.pay1_eq _).trans (load_whole arg2 harg2 zero2 _ x0)) (ix2 r q)).trans (h0 r q h))
      hX r col h
  · intro r col h
    refine (Payloads.pay11_apply _ _ r col).trans ?_
    exact block_row (V m c main_arg1) (V m c main_arg0) _ _ (400 * t.val + 80 * 1)
      (fun r q h => (congrFun ((Payloads.pay2_eq _).trans (load_whole arg3 harg3 zero2 _ x1)) (ix2 r q)).trans (h1 r q h))
      hX r col h
  · intro r col h
    refine (Payloads.pay12_apply _ _ r col).trans ?_
    exact block_row (V m c main_arg1) (V m c main_arg0) _ _ (400 * t.val + 80 * 2)
      (fun r q h => (congrFun ((Payloads.pay3_eq _).trans (load_whole arg4 harg4 zero2 _ x2)) (ix2 r q)).trans (h2 r q h))
      hX r col h
  · intro r col h
    refine (Payloads.pay13_apply _ _ r col).trans ?_
    exact block_row (V m c main_arg1) (V m c main_arg0) _ _ (400 * t.val + 80 * 3)
      (fun r q h => (congrFun ((Payloads.pay4_eq _).trans (load_whole arg5 harg5 zero2 _ x3)) (ix2 r q)).trans (h3 r q h))
      hX r col h
  · intro r col h
    refine (Payloads.pay7_apply _ _ r col).trans ?_
    exact block_row (V m c main_arg1) (V m c main_arg0) _ _ (400 * t.val + 80 * 4)
      (fun r q h => (congrFun (load_whole arg6 harg6 zero2 _ x4) (ix2 r q)).trans (h4 r q h))
      hX r col h

end Cert.KernelIdeal.Exact

end
-- ==== Proof.KI.ResultBlock.lean ====
/-
  The result block after a point of the second sweep, entry by entry, on the extended reals.

  The five stores of such a point write the five 80-row pieces of a 400 x 128 block; read back at row `r`, column
  `col`, the block holds the shifted log-softmax of the logits of row `400 (t - 25) + r` of the matrix taken against the
  first product, the weights and the bias: the specification's entry.
-/
import proofs.«179778_g4148938408473_cont_8to1_b_702_13_alg».proof.Proof.KI.ExactDefs
import proofs.«179778_g4148938408473_cont_8to1_b_702_13_alg».proof.Proof.KIPayloads
import Idealize.ShloMosaic.Lib.WritesUnit
import Idealize.ShloMosaic.Lib.Tactic
import Idealize.ShloMosaic.Lib.Pipeline.Value
import Idealize.ShloMosaic.Lib.Pipeline.FrameBody

set_option maxRecDepth 16384

noncomputable section

namespace Cert.KernelIdeal.Exact

open Cert.KernelIdeal Cert.KernelIdeal.Gen Cert.KernelIdeal.Frame
open Idealize.ShloMosaic Idealize.ShloMosaic.TcCoe Idealize.ShloMosaic.ValueIdx Idealize.ShloMosaic.Tactic
open Idealize.SL Idealize.SL.Sem
open scoped BigOperators

/-! ## The result block a point of the second sweep leaves

The five pieces of the second sweep are stored at rows `80 s` (`s = 0, …, 4`) of the 400 x 128 buffer and cover it. Row
`r = 80 s + r'` of the buffer therefore reads piece `s` at row `r'`: the shifted log-softmax of the logits of row `r'` of
the `s`-th block of the matrix. With the stored table the first product `A·x`, that is the specification's row
`400 (t - 25) + r`. -/

variable (m : (ℓ : Loc nD τ sig) → Buf (Elt Ideal) ℓ)

/-- Row `r` of stream `s`'s block at a point whose second coordinate is `j` is row `400 j + 80 s + r` of the matrix. -/
def IsRowsC (c : Dev nD) (j : ℕ) (s : ℕ) (x : Vec Ideal S80x10000 .f32) : Prop :=
  ∀ (r : Fin 80) (q : Fin 10000) (h : 400 * j + 80 * s + r.val < 10000), x (ix2 r q) = V m c main_arg1 (ix2 ⟨400 * j + 80 * s + r.val, h⟩ q)

/-- The zero offsets of a whole-buffer load, as a function. -/
theorem resblk_zero_off : (![0, 0] : Fin 2 → ℕ) = fun _ => 0 := funext fun a => by fin_cases a <;> rfl

/-- The value every piece of the second sweep has at a row whose entries of the matrix are `a`: the shifted log-softmax
    of the row's logits against the stored table `y`, the weights `w` and the bias row `bb`. -/
def resblkRow (a : Fin 10000 → EReal) (y : Vec Ideal S10000x128 .bf16) (w : Vec Ideal S128x128 .f32) (bb : Vec Ideal S1x128 .f32)
    (col : Fin 128) : EReal :=
  Cert.Sgc.lsmRow (fun j => (∑ k : Fin 128, (∑ q : Fin 10000, a q * y (ix2 q k)) * w (ix2 j k)) + bb (ix2 0 j)) col

/-- Two rows with the same entries give the same value. -/
theorem resblkRow_congr {a a' : Fin 10000 → EReal} (h : ∀ q, a q = a' q) (y : Vec Ideal S10000x128 .bf16) (w : Vec Ideal S128x128 .f32)
    (bb : Vec Ideal S1x128 .f32) (col : Fin 128) : resblkRow a y w bb col = resblkRow a' y w bb col :=
  congrArg (fun g => resblkRow g y w bb col) (funext h)

/-- Entry `(r, col)` of the buffer after the five stores of a point of the second sweep, `a` being the row of the matrix
    that row `r` of the buffer belongs to: row `r - 80 s` of the `s`-th block when `80 s ≤ r < 80 (s + 1)`. -/
theorem resblk_read (c : Dev nD) (i : grid0.Coords) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : ¬cond0_0 i) (hc1 : ¬cond0_1 i) (hc2 : cond0_2 i)
    (x0 x1 x2 x3 x4 : Vec Ideal S80x10000 .f32) (x6 : Vec Ideal S128x128 .f32) (x7 : Vec Ideal S1x128 .f32)
    (y : Vec Ideal S10000x128 .bf16) (f : arg10.view.ty.Contents (Elt Ideal)) (r : Fin 400) (col : Fin 128)
    (a : Fin 10000 → EReal)
    (h0 : ∀ r' : Fin 80, r.val = r'.val → ∀ q, x0 (ix2 r' q) = a q)
    (h1 : ∀ r' : Fin 80, r.val = 80 + r'.val → ∀ q, x1 (ix2 r' q) = a q)
    (h2 : ∀ r' : Fin 80, r.val = 160 + r'.val → ∀ q, x2 (ix2 r' q) = a q)
    (h3 : ∀ r' : Fin 80, r.val = 240 + r'.val → ∀ q, x3 (ix2 r' q) = a q)
    (h4 : ∀ r' : Fin 80, r.val = 320 + r'.val → ∀ q, x4 (ix2 r' q) = a q) :
    arg10.view.read (Elt Ideal) (arg10.view.writes (Elt Ideal) f
        (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x6 x7 y).1) (ix2 r col)
      = resblkRow a y x6 x7 col := by
  unfold kernelRun0_C
  dsimp only
  sl_unfold_run_names
  simp only [View.readAt_eq_ld, Memref.IsWhole.read_unread]
  rw [View.ld_unit_zero (S := S80x10000) resblk_zero_off, View.ld_unit_zero (S := S80x10000) resblk_zero_off,
    View.ld_unit_zero (S := S80x10000) resblk_zero_off, View.ld_unit_zero (S := S80x10000) resblk_zero_off,
    View.ld_unit_zero (S := S80x10000) resblk_zero_off, View.ld_unit_zero (S := S10000x128) resblk_zero_off,
    View.ld_unit_zero (S := S128x128) resblk_zero_off, View.ld_unit_zero (S := S1x128) resblk_zero_off]
  have hr : r.val < 400 := r.isLt
  have hW : S80x128.size (0 : Fin 2) = 80 := rfl
  by_cases c4 : 320 ≤ r.val
  · -- the newest piece: rows 320 … 399
    refine (View.read_writes_cons_rows_of_mem arg10.view f inb_S400x128_S80x128_320_0 _ _ (ix2 r col)
      (ix2 (n0 := 80) (n1 := 128) ⟨r.val - 320, by omega⟩ col) rfl (show r.val = 320 + (r.val - 320) by omega) rfl).trans ?_
    refine (Payloads.pay9_apply x4 y x6 x7 _ col).trans ?_
    exact resblkRow_congr (h4 ⟨r.val - 320, by omega⟩ (show r.val = 320 + (r.val - 320) by omega)) y x6 x7 col
  rw [View.read_writes_cons_rows_of_not_mem arg10.view f inb_S400x128_S80x128_320_0 _ _ (ix2 r col) rfl hW
    (Or.inl (show r.val < 320 by omega))]
  by_cases c3 : 240 ≤ r.val
  · refine (View.read_writes_cons_rows_of_mem arg10.view f inb_S400x128_S80x128_240_0 _ _ (ix2 r col)
      (ix2 (n0 := 80) (n1 := 128) ⟨r.val - 240, by omega⟩ col) rfl (show r.val = 240 + (r.val - 240) by omega) rfl).trans ?_
    refine (Payloads.pay8_pay17_pay18_apply (k0_pay4 x3) y x6 x7 _ col).trans ?_
    exact resblkRow_congr (h3 ⟨r.val - 240, by omega⟩ (show r.val = 240 + (r.val - 240) by omega)) y x6 x7 col
  rw [View.read_writes_cons_rows_of_not_mem arg10.view f inb_S400x128_S80x128_240_0 _ _ (ix2 r col) rfl hW
    (Or.inl (show r.val < 240 by omega))]
  by_cases c2 : 160 ≤ r.val
  · refine (View.read_writes_cons_rows_of_mem arg10.view f inb_S400x128_S80x128_160_0 _ _ (ix2 r col)
      (ix2 (n0 := 80) (n1 := 128) ⟨r.val - 160, by omega⟩ col) rfl (show r.val = 160 + (r.val - 160) by omega) rfl).trans ?_
    refine (Payloads.pay16_apply (k0_pay3 x2) y x6 x7 _ col).trans ?_
    exact resblkRow_congr (h2 ⟨r.val - 160, by omega⟩ (show r.val = 160 + (r.val - 160) by omega)) y x6 x7 col
  rw [View.read_writes_cons_rows_of_not_mem arg10.view f inb_S400x128_S80x128_160_0 _ _ (ix2 r col) rfl hW
    (Or.inl (show r.val < 160 by omega))]
  by_cases c1 : 80 ≤ r.val
  · refine (View.read_writes_cons_rows_of_mem arg10.view f inb_S400x128_S80x128_80_0 _ _ (ix2 r col)
      (ix2 (n0 := 80) (n1 := 128) ⟨r.val - 80, by omega⟩ col) rfl (show r.val = 80 + (r.val - 80) by omega) rfl).trans ?_
    refine (Payloads.pay15_apply (k0_pay2 x1) y x6 x7 _ col).trans ?_
    exact resblkRow_congr (h1 ⟨r.val - 80, by omega⟩ (show r.val = 80 + (r.val - 80) by omega)) y x6 x7 col
  rw [View.read_writes_cons_rows_of_not_mem arg10.view f inb_S400x128_S80x128_80_0 _ _ (ix2 r col) rfl hW
    (Or.inl (show r.val < 80 by omega))]
  refine (View.read_writes_cons_rows_of_mem arg10.view f inb_S400x128_S80x128_0_0 _ _ (ix2 r col)
    (ix2 (n0 := 80) (n1 := 128) ⟨r.val, by omega⟩ col) rfl (show r.val = 0 + r.val by omega) rfl).trans ?_
  refine (Payloads.pay14_apply (k0_pay1 x0) y x6 x7 _ col).trans ?_
  exact resblkRow_congr (h0 ⟨r.val, by omega⟩ rfl) y x6 x7 col

/-- A row of the matrix against the first product, the weights and the bias is the specification's row. -/
theorem resblkRow_spec (c : Dev nD) (x6 : Vec Ideal S128x128 .f32) (x7 : Vec Ideal S1x128 .f32)
    (hx6 : ∀ i, x6 i = V m c main_arg2 i) (hx7 : ∀ j : Fin 128, x7 (ix2 0 j) = V m c main_arg3 (ix1 j))
    (row : Fin 10000) (col : Fin 128) :
    resblkRow (fun q => V m c main_arg1 (ix2 row q)) (Yfull m c) x6 x7 col
      = Cert.Sgc.G (V m c main_arg1) (V m c main_arg0) (V m c main_arg2) (V m c main_arg3) (ix2 row col) := by
  unfold resblkRow
  show Cert.Sgc.lsmRow _ col = Cert.Sgc.lsmRow (Cert.Sgc.logit (V m c main_arg1) (V m c main_arg0) (V m c main_arg2) (V m c main_arg3) row) col
  refine congrArg (fun g : Fin 128 → EReal => Cert.Sgc.lsmRow g col) (funext fun j => ?_)
  unfold Cert.Sgc.logit
  rw [hx7 j]
  refine congrArg (· + V m c main_arg3 (ix1 j)) (Finset.sum_congr rfl fun k _ => ?_)
  rw [hx6 (ix2 j k)]
  rfl

theorem result_block (c : Dev nD) (t : Fin cfg0.N) (ht : 25 ≤ t.val) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : ¬cond0_0 (grid0.coords t)) (hc1 : ¬cond0_1 (grid0.coords t)) (hc2 : cond0_2 (grid0.coords t))
    (x0 x1 x2 x3 x4 : Vec Ideal S80x10000 .f32) (x6 : Vec Ideal S128x128 .f32) (x7 : Vec Ideal S1x128 .f32)
    (h0 : IsRowsC m c (t.val - 25) 0 x0) (h1 : IsRowsC m c (t.val - 25) 1 x1) (h2 : IsRowsC m c (t.val - 25) 2 x2) (h3 : IsRowsC m c (t.val - 25) 3 x3) (h4 : IsRowsC m c (t.val - 25) 4 x4)
    (hx6 : ∀ i, x6 i = V m c main_arg2 i) (hx7 : ∀ j : Fin 128, x7 (ix2 0 j) = V m c main_arg3 (ix1 j))
    (f : arg10.view.ty.Contents (Elt Ideal)) (r : Fin 400) (col : Fin 128) (h : 400 * (t.val - 25) + r.val < 10000) :
    arg10.view.read (Elt Ideal) (arg10.view.writes (Elt Ideal) f
        (kernelRun0_C c (grid0.coords t) arg2 harg2 arg3 harg3 arg4 harg4 arg5 harg5 arg6 harg6 arg7 harg7 arg8 harg8 arg9 harg9 arg10 harg10 arg11 harg11 arg12 harg12 hc0 hc1 hc2 x0 x1 x2 x3 x4 x6 x7 (Yfull m c)).1) (ix2 r col)
      = Cert.Sgc.G (V m c main_arg1) (V m c main_arg0) (V m c main_arg2) (V m c main_arg3) (ix2 ⟨400 * (t.val - 25) + r.val, h⟩ col) := by
  refine (resblk_read c (grid0.coords t) arg2 harg2 arg3 harg3 arg4 harg4 arg5 harg5 arg6 harg6 arg7 harg7 arg8 harg8 arg9 harg9 arg10 harg10 arg11 harg11 arg12 harg12 hc0 hc1 hc2 x0 x1 x2 x3 x4 x6 x7 (Yfull m c) f r col
    (fun q => V m c main_arg1 (ix2 ⟨400 * (t.val - 25) + r.val, h⟩ q)) ?_ ?_ ?_ ?_ ?_).trans
    (resblkRow_spec m c x6 x7 hx6 hx7 ⟨400 * (t.val - 25) + r.val, h⟩ col)
  · intro r' e q
    have hb : 400 * (t.val - 25) + 80 * 0 + r'.val < 10000 := by omega
    rw [h0 r' q hb]
    exact congrArg (fun n : Fin 10000 => V m c main_arg1 (ix2 n q)) (Fin.ext (by show 400 * (t.val - 25) + 80 * 0 + r'.val = 400 * (t.val - 25) + r.val; omega))
  · intro r' e q
    have hb : 400 * (t.val - 25) + 80 * 1 + r'.val < 10000 := by omega
    rw [h1 r' q hb]
    exact congrArg (fun n : Fin 10000 => V m c main_arg1 (ix2 n q)) (Fin.ext (by show 400 * (t.val - 25) + 80 * 1 + r'.val = 400 * (t.val - 25) + r.val; omega))
  · intro r' e q
    have hb : 400 * (t.val - 25) + 80 * 2 + r'.val < 10000 := by omega
    rw [h2 r' q hb]
    exact congrArg (fun n : Fin 10000 => V m c main_arg1 (ix2 n q)) (Fin.ext (by show 400 * (t.val - 25) + 80 * 2 + r'.val = 400 * (t.val - 25) + r.val; omega))
  · intro r' e q
    have hb : 400 * (t.val - 25) + 80 * 3 + r'.val < 10000 := by omega
    rw [h3 r' q hb]
    exact congrArg (fun n : Fin 10000 => V m c main_arg1 (ix2 n q)) (Fin.ext (by show 400 * (t.val - 25) + 80 * 3 + r'.val = 400 * (t.val - 25) + r.val; omega))
  · intro r' e q
    have hb : 400 * (t.val - 25) + 80 * 4 + r'.val < 10000 := by omega
    rw [h4 r' q hb]
    exact congrArg (fun n : Fin 10000 => V m c main_arg1 (ix2 n q)) (Fin.ext (by show 400 * (t.val - 25) + 80 * 4 + r'.val = 400 * (t.val - 25) + r.val; omega))

end Cert.KernelIdeal.Exact

end
-- ==== Proof.KI.Exact.lean ====
import proofs.«179778_g4148938408473_cont_8to1_b_702_13_alg».proof.Proof.KI.Launch
import proofs.«179778_g4148938408473_cont_8to1_b_702_13_alg».proof.Proof.KI.Blocks
import proofs.«179778_g4148938408473_cont_8to1_b_702_13_alg».proof.Proof.KI.ScratchRows
import proofs.«179778_g4148938408473_cont_8to1_b_702_13_alg».proof.Proof.KI.ResultBlock

set_option maxRecDepth 16384

noncomputable section

namespace Cert.KernelIdeal.Exact

open Cert.KernelIdeal Cert.KernelIdeal.Gen Cert.KernelIdeal.Frame
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The invariant between points

Before the first point the scratch holds anything. After point `n` the first scratch holds the features and the
first `400·(n+1)` rows of the second are rows of `A·x` (all of them from the end of the first sweep on). -/

def PhiS (c : Dev nD) : (n : ℕ) → n ≤ cfg0.N → sProp 𝕄
  | 0, _ => Pipeline.ΦA spec0 c
  | n + 1, _ => iprop(iprop(owns (c : Thread nD τ) scM0_0 fullShare (xb m c) ∗ (∃ y, ⌜RowsDone m c n y⌝ ∗ owns (c : Thread nD τ) scM0_1 fullShare y)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xb m c) ∗ (∃ y, ⌜RowsDone m c n y⌝ ∗ owns (c : Thread nD τ) scM0_1 fullShare y)) ∗ (∃ r, prngReg c r)) := rfl

theorem PhiS_pos (c : Dev nD) (n : ℕ) (h : n ≤ cfg0.N) (hz : n ≠ 0) :
    PhiS m c n h = iprop(iprop(owns (c : Thread nD τ) scM0_0 fullShare (xb m c) ∗ (∃ y, ⌜RowsDone m c (n - 1) y⌝ ∗ owns (c : Thread nD τ) scM0_1 fullShare y)) ∗ (∃ r, prngReg c r)) := by
  cases n with
  | zero => exact absurd rfl hz
  | succ n => rfl

/-! ## The proof data: every buffer named -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oblk m c t
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = oblk m c t := by dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- What a point of the second sweep leaves in the result window's buffer is the block of the specification. -/
theorem result_eq (c : Dev nD) (t : Fin cfg0.N) (ht : 25 ≤ t.val) (hN : t.val < 50) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S10000x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S10000x128 .bf16) (harg11 : arg11.IsWhole) (arg12 : Memref sig .tc .vmem S10000x128 .bf16) (harg12 : arg12.IsWhole)
    (hc0 : ¬cond0_0 (grid0.coords t)) (hc1 : ¬cond0_1 (grid0.coords t)) (hc2 : cond0_2 (grid0.coords t))
    (f : arg10.view.ty.Contents (Elt Ideal)) :
    arg10.view.read (Elt Ideal) (arg10.view.writes (Elt Ideal) f
        (kernelRun0_C c (grid0.coords t) arg2 harg2 arg3 harg3 arg4 harg4 arg5 harg5 arg6 harg6 arg7 harg7 arg8 harg8 arg9 harg9 arg10 harg10 arg11 harg11 arg12 harg12 hc0 hc1 hc2 (iblk m c 0 t) (iblk m c 1 t) (iblk m c 2 t) (iblk m c 3 t) (iblk m c 4 t) (iblk m c 6 t) (iblk m c 7 t) (Yfull m c)).1)
      = oblk m c t := by
  have hj : t.val % 25 = t.val - 25 := by omega
  funext y
  obtain ⟨r, col, rfl⟩ : ∃ (r : Fin 400) (col : Fin 128), y = ix2 r col := ⟨y 0, y 1, eq_ix2 y⟩
  have h : 400 * (t.val - 25) + r.val < 10000 := by have := r.isLt; omega
  rw [oblk_apply m c t ht r col h]
  exact result_block m c t ht arg2 harg2 arg3 harg3 arg4 harg4 arg5 harg5 arg6 harg6 arg7 harg7 arg8 harg8 arg9 harg9 arg10 harg10 arg11 harg11 arg12 harg12 hc0 hc1 hc2 _ _ _ _ _ _ _
    (fun r q h => iblk_rows_0' m c t (t.val - 25) hj r q h) (fun r q h => iblk_rows_1' m c t (t.val - 25) hj r q h) (fun r q h => iblk_rows_2' m c t (t.val - 25) hj r q h) (fun r q h => iblk_rows_3' m c t (t.val - 25) hj r q h) (fun r q h => iblk_rows_4' m c t (t.val - 25) hj r q h)
    (iblk_whole_6 m c t) (iblk_bias m c t) f r col h

set_option maxHeartbeats 8000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h1 : t.val < 25
  · have h2 : ¬ 25 ≤ t.val := by omega
    have hnc2 : ¬cond0_2 (grid0.coords t) := fun h => h2 ((hcond0_2 t).mp h)
    have hj : t.val % 25 = t.val := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [Dat.leavesExact_idle (dats m 0 c) 8 t (idleAt0_8 t hnc2) (noFlush0_8 t hnc2)]
    by_cases h0 : t.val = 0
    · rw [PhiS_castSucc m c t, PhiS_zero m c _ _ h0, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) ((hcond0_1 t).mpr h1) hnc2 (iblk m c 0 t) (iblk m c 1 t) (iblk m c 2 t) (iblk m c 3 t) (iblk m c 4 t) (iblk m c 5 t) ds1).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexact HS1
      iintro ⟨H0, H1, H2, H3, H4, H5, ⟨%es0, HS0⟩, HS1⟩
      isplitl [HS0 HS1 Hg]
      · isplitr [Hg]
        · isplitl [HS0]
          · unfold owns; iexists _; isplitr
            swap; · iexact HS0
            ipureintro
            exact scratch0_after_first m c t h0 _ _ _ _ _ _ _ _ _ _ _ _ _ _ _ _ _ _ _ _ _ _ _ _ _ _ _ _ _ _ _ (iblk_whole_5 m c t) ds1 es0
          · iexists _; isplitr
            swap
            · unfold owns; iexists _; isplitr
              swap; · iexact HS1
              ipureintro; rfl
            ipureintro
            refine fun i hi => (?_ : RowsDone m c 0 _) i (by omega)
            exact rows_after_first m c t h0 _ _ _ _ _ _ _ _ _ _ _ _ _ _ _ _ _ _ _ _ _ _ _ _ _ _ _ _ _ _ _ (iblk_whole_5 m c t)
              (fun r q h => iblk_rows_0' m c t 0 (by omega) r q h) (fun r q h => iblk_rows_1' m c t 0 (by omega) r q h) (fun r q h => iblk_rows_2' m c t 0 (by omega) r q h) (fun r q h => iblk_rows_3' m c t 0 (by omega) r q h) (fun r q h => iblk_rows_4' m c t 0 (by omega) r q h) ds1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ h0]
      iintro ⟨⟨⟨HS0, ⟨%y, %hy, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) ((hcond0_1 t).mpr h1) hnc2 (iblk m c 0 t) (iblk m c 1 t) (iblk m c 2 t) (iblk m c 3 t) (iblk m c 4 t) (xb m c) y).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitr [Hg]
        · isplitl [HS0]
          · iexact HS0
          · iexists _; isplitr
            swap
            · unfold owns; iexists _; isplitr
              swap; · iexact HS1
              ipureintro; rfl
            ipureintro
            exact rows_after_later m c t (by omega) h1 _ _ _ _ _ _ _ _ _ _ _ _ _ _ _ _ _ _ _ _ _ _ _ _ _ _ _ _ _ _
              (fun r q h => iblk_rows_0' m c t t.val hj r q h) (fun r q h => iblk_rows_1' m c t t.val hj r q h) (fun r q h => iblk_rows_2' m c t t.val hj r q h) (fun r q h => iblk_rows_3' m c t t.val hj r q h) (fun r q h => iblk_rows_4' m c t t.val hj r q h) y hy
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have h2 : 25 ≤ t.val := by omega
    have h0 : ¬ t.val = 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t ((hcond0_2 t).mpr h2)], after0_8]
    rw [PhiS_castSucc m c t, PhiS_pos m c _ _ h0]
    iintro ⟨⟨⟨HS0, ⟨%y, %hy, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl : y = Yfull m c := funext fun i => hy i (by have := idx2_lt0 i; omega)
    iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 6 t) (iblk m c 7 t) (Yfull m c)).2 Set.univ _)
    isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexists _; iexact H8
    isplitl [HS1]; · iexact HS1
    iintro ⟨H0, H1, H2, H3, H4, H6, H7, ⟨%e8, H8⟩, HS1⟩
    isplitl [HS0 HS1 Hg]
    · isplitr [Hg]
      · isplitl [HS0]
        · iexact HS0
        · iexists (Yfull m c); isplitr
          · ipureintro; exact fun i _ => rfl
          · iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    exact result_eq m c t h2 hN _ _ _ _ _ _ _ _ _ _ _ _ _ _ _ _ _ _ _ _ _ _ _ _ _ e8

theorem body_obligation (c : Dev nD) : BodyObligation (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA0_eq]
  iintro ⟨⟨HS0, ⟨%y, -, HS1⟩⟩, Hg⟩
  isplitl [HS0 HS1]
  · isplitl [HS0]
    · iexists _; iexact HS0
    · iexists _; iexact HS1
  iexact Hg

/-! ## The run, and the result array -/

theorem run_main : θ_run defs (onTc (τ := τ) (main (F := Ideal))) (s₀ m ρ) (Pipeline.FramePost cfgs (dats m) 0 (V m)) :=
  (θ_run defs _ _).mono (fun r h => Pipeline.RDat.FramePost.toDat cfgs (dats m) 0 (V m) r h)
    (run_shared m ρ (fun c => (dats m 0 c).toR) (fun c => (body_obligation m c).loose.toR)
      (fun _ _ => rfl) (fun _ _ => rfl) (A_eq m) (hin m) (hout m))

theorem flush0_8 : ∀ t : Fin cfg0.N, 25 ≤ t.val → (cfg0.win 8).flush t = true :=
  (by decide +kernel : ∀ t : Fin grid0.N, 25 ≤ t.val → win0_8.flush t = true)

/-- What a point of the second sweep writes back is its block of the specification. -/
theorem flushed8_eq (c : Dev nD) (t : Fin cfg0.N) :
    (dats m 0 c).flushed 8 t = ((cfg0.win 8).blk t).view.read (Elt Ideal) (Gout m c) := by
  show (cfg0.win 8).cut (grid0.coords t) ((dats m 0 c).after 8 t) = _
  rw [after0_8]
  rfl

theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v1).slice (win0_8.rect t)).set ↔ _
  rw [View.set_slice_whole, Rect.mem_set_unit]
  exact Iff.rfl

/-- The 25 blocks written back in the second sweep tile the result array, so it ends at the specification. -/
theorem final8 (c : Dev nD) : (dats m 0 c).arrAt 8 cfg0.N = Gout m c :=
  (dats m 0 c).arrAt_eq_of_cover 8 (Gout m c) (fun t _ => flushed8_eq m c t) (fun i => by
    have hi0 : (i 0).val < 10000 := idx2_lt0 i
    have hi1 : (i 1).val < 128 := idx2_lt1 i
    have hN : cfg0.N = 50 := N_0
    refine ⟨⟨25 + (i 0).val / 400, by omega⟩, flush0_8 _ (by show 25 ≤ 25 + (i 0).val / 400; omega), ?_⟩
    rw [mem_blk8]
    obtain ⟨e0, e1⟩ := idx0_8 ⟨25 + (i 0).val / 400, by omega⟩
    rw [if_pos (by show 25 ≤ 25 + (i 0).val / 400; omega)] at e0
    intro a
    match a with
    | ⟨0, _⟩ => show win0_8.index _ (0 : Fin 2) * 400 ≤ (i 0).val ∧ (i 0).val < win0_8.index _ (0 : Fin 2) * 400 + 400; rw [e0]; show (25 + (i 0).val / 400 - 25) * 400 ≤ (i 0).val ∧ (i 0).val < (25 + (i 0).val / 400 - 25) * 400 + 400; omega
    | ⟨1, _⟩ => show win0_8.index _ (1 : Fin 2) * 128 ≤ (i 1).val ∧ (i 1).val < win0_8.index _ (1 : Fin 2) * 128 + 128; rw [e1]; omega)

/-- The kernel's run on the extended reals: the result array ends at the specification of the argument arrays, and the
    arguments end as they were. -/
theorem run : θ_run defs (onTc (τ := τ) (main (F := Ideal))) ⟨m, fun _ => 0, ρ⟩ (fun r => ∀ c : Dev nD,
      r.2.mem ((c.tc : Thread nD τ).loc main_v1) = Cert.Sgc.G (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 8).trans ((final8 m c).trans (by unfold Gout; rw [V_main_arg0, V_main_arg1, V_main_arg2, V_main_arg3])),
     ((h c).1 5).trans (((dats m 0 c).arrAt_in 5 rfl _).trans ((A_eq m c 5).trans (V_main_arg0 m c))),
     ((h c).1 0).trans (((dats m 0 c).arrAt_in 0 rfl _).trans ((A_eq m c 0).trans (V_main_arg1 m c))),
     ((h c).1 6).trans (((dats m 0 c).arrAt_in 6 rfl _).trans ((A_eq m c 6).trans (V_main_arg2 m c))),
     ((h c).2 main_arg3 (Pipeline.mem_restRefs_of main_arg3 (by decide) (by decide))).trans (V_main_arg3 m c)⟩) (run_main m ρ)

end Cert.KernelIdeal.Exact

end
-- ==== Proof.RefValue.lean ====
/-
  The reference program computes the specification's array.

  Its run leaves in the result buffer the composition of its twenty-two operations applied to the four argument arrays.
  Read one operation at a time at an index, that composition is: the two propagation steps as sums over the 10000 rows,
  the linear layer as a sum over the 128 features against the transposed weights plus the bias broadcast along the
  rows, and the logarithm of the softmax along each row — the row's maximum (a fold from the float `-inf`, once more compared
  with `-inf`, which changes nothing), the shifted logits, the sum of their exponentials started from the float zero,
  its logarithm, and the difference. Each stage is identified with the specification's function of the same name at the
  coordinates of the index; the last one is `G`.
-/
import proofs.«179778_g4148938408473_cont_8to1_b_702_13_alg».proof.Defs
import proofs.«179778_g4148938408473_cont_8to1_b_702_13_alg».proof.Proof.Gen.Pre_finite_inputs
import proofs.«179778_g4148938408473_cont_8to1_b_702_13_alg».proof.Proof.RefReadP
import proofs.«179778_g4148938408473_cont_8to1_b_702_13_alg».proof.Proof.Spec

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Sgc
open scoped BigOperators

/-! ## The linear part -/

/-- The first propagation step at row `q`, feature `k`. -/
theorem v0_at (x0 : (⟨S10000x128, .f32⟩ : BufTy).Contents (Elt Ideal)) (x1 : (⟨S10000x10000, .f32⟩ : BufTy).Contents (Elt Ideal)) (q : Fin 10000) (k : Fin 128) :
    val_main_v0 (F := Ideal) x0 x1 (ix2 q k) = step x1 x0 q k := by
  rw [val_main_v0_apply]
  unfold step
  refine Finset.sum_congr rfl fun p _ => ?_
  have e1 : lidx_main_v0 (ix2 q k) p = ix2 q p := funext fun a => Fin.ext (by match a with | ⟨0, _⟩ => rfl | ⟨1, _⟩ => rfl)
  have e2 : ridx_main_v0 (ix2 q k) p = ix2 p k := funext fun a => Fin.ext (by match a with | ⟨0, _⟩ => rfl | ⟨1, _⟩ => rfl)
  rw [e1, e2]

/-- The second propagation step at row `r`, feature `k`. -/
theorem v1_at (x0 : (⟨S10000x128, .f32⟩ : BufTy).Contents (Elt Ideal)) (x1 : (⟨S10000x10000, .f32⟩ : BufTy).Contents (Elt Ideal)) (r : Fin 10000) (k : Fin 128) :
    val_main_v1 (F := Ideal) x0 x1 (ix2 r k) = step2 x1 x0 r k := by
  rw [val_main_v1_apply]
  unfold step2
  refine Finset.sum_congr rfl fun q _ => ?_
  have e1 : lidx_main_v1 (ix2 r k) q = ix2 r q := funext fun a => Fin.ext (by match a with | ⟨0, _⟩ => rfl | ⟨1, _⟩ => rfl)
  have e2 : ridx_main_v1 (ix2 r k) q = ix2 q k := funext fun a => Fin.ext (by match a with | ⟨0, _⟩ => rfl | ⟨1, _⟩ => rfl)
  rw [e1, e2, v0_at]

/-- The transposed weights at (k, j) are the weights at (j, k). -/
theorem v2_at (x2 : (⟨S128x128, .f32⟩ : BufTy).Contents (Elt Ideal)) (k j : Fin 128) :
    val_main_v2 (F := Ideal) x2 (ix2 k j) = x2 (ix2 j k) := by
  rw [val_main_v2_apply]
  exact congrArg x2 (funext fun a => Fin.ext (by match a with | ⟨0, _⟩ => rfl | ⟨1, _⟩ => rfl))

/-- The product with the transposed weights at row `r`, class `j`. -/
theorem v3_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (j : Fin 128) :
    val_main_v3 (F := Ideal) x0 x1 x2 (ix2 r j) = ∑ k : Fin 128, step2 x1 x0 r k * x2 (ix2 j k) := by
  rw [val_main_v3_apply]
  refine Finset.sum_congr rfl fun k _ => ?_
  have e1 : lidx_main_v3 (ix2 r j) k = ix2 r k := funext fun a => Fin.ext (by match a with | ⟨0, _⟩ => rfl | ⟨1, _⟩ => rfl)
  have e2 : ridx_main_v3 (ix2 r j) k = ix2 k j := funext fun a => Fin.ext (by match a with | ⟨0, _⟩ => rfl | ⟨1, _⟩ => rfl)
  rw [e1, e2, v1_at, v2_at]

/-- The bias broadcast along the rows, at (r, j), is the bias at `j`. -/
theorem v5_at (x3 : (⟨S128, .f32⟩ : BufTy).Contents (Elt Ideal)) (r : Fin 10000) (j : Fin 128) :
    val_main_v5 (F := Ideal) x3 (ix2 r j) = x3 (ix1 j) := by
  rw [val_main_v5_apply, val_main_v4_apply]
  exact congrArg x3 (funext fun a => Fin.ext (by match a with | ⟨0, _⟩ => rfl))

/-- The logits at row `r`, class `j`. -/
theorem v6_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (j : Fin 128) :
    val_main_v6 (F := Ideal) x0 x1 x2 x3 (ix2 r j) = logit x1 x0 x2 x3 r j := by
  rw [val_main_v6_apply, v3_at, v5_at]
  rfl

/-! ## The row maximum -/

/-- Dropping the class axis of a [10000, 128] table leaves its rows. -/
theorem rows_of_table : S10000x128.Reduces [1] S10000 := by decide

/-- Row `r` with class `k` put back is (r, k). -/
theorem lift_row (r : Fin 10000) (k : Fin (S10000x128.size 1)) :
    rows_of_table.lift (ix1 r) k = ix2 r (⟨k.val, k.isLt⟩ : Fin 128) := by
  funext c; apply Fin.ext
  fin_cases c <;> rfl

/-- The maximum of row `r` of the logits: the fold from `-inf`; comparing it with `-inf` once more changes nothing. -/
theorem top_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) :
    val_main_call0_v2 (F := Ideal) x0 x1 x2 x3 (ix1 r) = rowTop (logit x1 x0 x2 x3 r) := by
  rw [val_main_call0_v2_apply, val_main_call0_v1_apply, val_main_call0_cst_0_apply]
  unfold val_main_call0_v0
  rw [Host.reduce_eq_fold_single FloatOps.maximumf _ _ reducesTo_S10000x128_S10000_d1 rows_of_table h_S_, val_main_call0_cst_apply]
  have hf : (val_main_v6 (F := Ideal) x0 x1 x2 x3 ∘ rows_of_table.lift (ix1 r)) = logit x1 x0 x2 x3 r :=
    funext fun k => by
      show val_main_v6 (F := Ideal) x0 x1 x2 x3 (rows_of_table.lift (ix1 r) k) = _
      rw [lift_row, v6_at]
      rfl
  rw [hf]
  show max (Ideal.ofBits .f32 0xFF800000#32) (rowTop (logit x1 x0 x2 x3 r)) = rowTop (logit x1 x0 x2 x3 r)
  exact max_eq_right (by unfold rowTop; exact (Finset.le_fold_max _).mpr (Or.inl le_rfl))

/-- The row maximum broadcast back over the table, at (r, j). -/
theorem top_bcast_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (j : Fin 128) :
    val_main_call0_v4 (F := Ideal) x0 x1 x2 x3 (ix2 r j) = rowTop (logit x1 x0 x2 x3 r) := by
  rw [val_main_call0_v4_apply, val_main_call0_v3_apply]
  have e : idx_main_call0_v3 (idx_main_call0_v4 (ix2 r j)) = ix1 r := funext fun a => Fin.ext (by match a with | ⟨0, _⟩ => rfl)
  rw [e, top_at]

/-! ## The shifted logits, their exponentials' sum, and the result -/

/-- The shifted logits at (r, j). -/
theorem shifted_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (j : Fin 128) :
    val_main_call0_v5 (F := Ideal) x0 x1 x2 x3 (ix2 r j) = logit x1 x0 x2 x3 r j - rowTop (logit x1 x0 x2 x3 r) := by
  rw [val_main_call0_v5_apply, v6_at, top_bcast_at]
  rfl

/-- The sum of the exponentials of row `r`'s shifted logits (the float zero it starts from adds nothing). -/
theorem expsum_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) :
    val_main_call0_v7 (F := Ideal) x0 x1 x2 x3 (ix1 r)
      = ∑ j : Fin 128, Ideal.exp (logit x1 x0 x2 x3 r j - rowTop (logit x1 x0 x2 x3 r)) := by
  rw [val_main_call0_v7_apply, val_main_call0_cst_1_apply, Ideal.ofBits_def, Ideal.ofBits_zero_f32, zero_add]
  refine Finset.sum_congr rfl fun j _ => ?_
  have e : idx_main_call0_v7 (ix1 r) j = ix2 r j := funext fun a => Fin.ext (by match a with | ⟨0, _⟩ => rfl | ⟨1, _⟩ => rfl)
  rw [e, val_main_call0_v6_apply, shifted_at]
  rfl

/-- The logarithm of that sum broadcast back over the table, at (r, j). -/
theorem logsum_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (j : Fin 128) :
    val_main_call0_v10 (F := Ideal) x0 x1 x2 x3 (ix2 r j)
      = Ideal.log (∑ j : Fin 128, Ideal.exp (logit x1 x0 x2 x3 r j - rowTop (logit x1 x0 x2 x3 r))) := by
  rw [val_main_call0_v10_apply, val_main_call0_v9_apply, val_main_call0_v8_apply]
  have e : idx_main_call0_v8 (idx_main_call0_v10 (ix2 r j)) = ix1 r := funext fun a => Fin.ext (by match a with | ⟨0, _⟩ => rfl)
  rw [e, expsum_at]
  rfl

/-- The reference's last stage is the specification's array `G` of the propagation matrix (argument 1), the features
    (argument 0), the weights (argument 2) and the bias (argument 3). -/
theorem ref_is_G (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v7 (F := Ideal) x0 x1 x2 x3 = G x1 x0 x2 x3 := by
  funext i
  obtain ⟨r, j, rfl⟩ : ∃ (r : Fin 10000) (j : Fin 128), i = ix2 r j := ⟨i 0, i 1, eq_ix2 i⟩
  rw [val_main_v7_apply, shifted_at, logsum_at]
  rfl

/-- The reference's run with its result named by the specification: on every device the result buffer ends at `G` of
    the launch contents of the propagation matrix, the features, the weights and the bias, and the arguments end unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = G (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v7_eq (F := Ideal) (m ((c.tc : Thread nD τ).loc main_arg0)) (m ((c.tc : Thread nD τ).loc main_arg1)) (m ((c.tc : Thread nD τ).loc main_arg2)) (m ((c.tc : Thread nD τ).loc main_arg3))).trans (ref_is_G _ _ _ _)), (h c).2⟩) (ValueP.run (F := Ideal) m ρ)

/-- The reference runs and leaves its arguments unchanged: its run with the result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (ValueP.run (F := Ideal) m ρ)

end Cert.ReferenceIdeal.RefValue

end
-- ==== Proof.lean ====
/-
  Two-step graph propagation with a linear classifier and a row-wise log-softmax:
  `out = log_softmax((A · (A · x)) · Wᵀ + b)` with `A` a 10000 x 10000 matrix, `x` 10000 x 128, `W` 128 x 128, `b` of length 128.

  The kernel sweeps the 125 row blocks of `A` (80 rows each, five per grid point, 25 points per sweep) twice. In the first
  sweep it keeps the features in a scratch buffer and fills a second scratch buffer with `A · x`, 400 rows per point; in the
  second sweep each row block of `A` is multiplied with that whole product, then with `Wᵀ`, the bias is added, and each row is
  replaced by its shifted log-softmax `(z - M) - log ∑ exp (z - M)`, `M` the row's largest entry. The reference computes
  the same expression with whole-array operations.

  On the extended reals both are the function `Cert.Sgc.G` (Proof/Spec.lean), index by index: a change of float format is the
  identity there, the blockwise products are the same finite sums as the whole products, and the two spellings of the
  log-softmax use the same operations in the same order; the reference's extra maximum with `-inf` is absorbed because the
  running maximum already starts from `-inf`. No property of the inputs beyond what the statement gives is used.

  The three programs run to the end without a fault and leave their arguments as they were: for the kernel (at the word
  level and on the extended reals) every grid point is one of three cases — the first point, a later point of the first
  sweep, a point of the second sweep — and in each the body's loads and stores stay inside the buffers it is handed; the
  propagation matrix is read through five windows at once, which share its buffer.
-/
import proofs.«179778_g4148938408473_cont_8to1_b_702_13_alg».proof.Defs
import proofs.«179778_g4148938408473_cont_8to1_b_702_13_alg».proof.Proof.Gen.Kernel
import proofs.«179778_g4148938408473_cont_8to1_b_702_13_alg».proof.Proof.Gen.KernelIdeal
import proofs.«179778_g4148938408473_cont_8to1_b_702_13_alg».proof.Proof.Gen.ReferenceIdeal
import proofs.«179778_g4148938408473_cont_8to1_b_702_13_alg».proof.Proof.Gen.Pre_finite_inputs
import proofs.«179778_g4148938408473_cont_8to1_b_702_13_alg».proof.Proof.K.Frame
import proofs.«179778_g4148938408473_cont_8to1_b_702_13_alg».proof.Proof.KI.Exact
import proofs.«179778_g4148938408473_cont_8to1_b_702_13_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Frame.frame m ρ

/-- The kernel on the extended reals runs and keeps its arguments: its run with the result array dropped. -/
theorem frame_ki : Cert.frame_KernelIdeal := fun m ρ _ =>
  (θ_run Cert.KernelIdeal.defs _ _).mono (fun _ h c => (h c).2) (Cert.KernelIdeal.Exact.run m ρ)

/-- Both programs end with the result array at `G` of the arguments, which agree. -/
theorem algebraic : Cert.algebraic_KernelIdeal_ReferenceIdeal := by
  intro m ρ m' ρ' _ hagree
  refine ⟨fun c => Cert.Sgc.G (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Exact.run m ρ, ?_⟩
  refine (θ_run Cert.ReferenceIdeal.defs _ _).mono (fun _ h c => ⟨?_, (h c).2⟩) (Cert.ReferenceIdeal.RefValue.run_G m' ρ')
  rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
